-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S128 .f32) (main_arg10 : FVec F S128x6 .f32) (main_arg11 : FVec F S6 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x6 .f32 := Host.absf main_arg10
  let main_cst_14 : FVec F S_ .f32 := constant S_ .f32 0x7F800000#32
  let main_v40 : FVec F S128x6 .f32 := broadcastInDim S128x6 ![] bcast_S_S128x6 main_cst_14
  let main_v41 : IVec S128x6 1 := cmpf .olt main_v39 main_v40
  let main_c_15 : IVec S_ 1 := constantI S_ 1 1#1
  let main_v42 : IVec S_ 1 := (fun x v => Host.reduce IntOp.andi x v reducesTo_S128x6_S_d0_1 h_S_) main_v41 main_c_15
  let main_v43 : IVec S_ 1 := andi main_v38 main_v42
  let main_v44 : FVec F S6 .f32 := Host.absf main_arg11
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x6 .f32) (main_arg11 : FVec F S6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x128 .f32) (main_arg7 : FVec F S128 .f32) (main_arg8 : FVec F S128x128 .f32) (main_arg9 : FVec F S128 .f32) (main_arg10 : FVec F S128x6 .f32) (main_arg11 : FVec F S6 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S100000x128 : Shape := ⟨2, ![100000, 128]⟩
abbrev S1000x512 : Shape := ⟨2, ![1000, 512]⟩
abbrev S1000x128 : Shape := ⟨2, ![1000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x6 : Shape := ⟨2, ![100000, 6]⟩
abbrev S1000x6 : Shape := ⟨2, ![1000, 6]⟩
abbrev S1600000x6 : Shape := ⟨2, ![1600000, 6]⟩
abbrev S1x6 : Shape := ⟨2, ![1, 6]⟩

abbrev nBuf : Space → Nat
  | .hbm => 88
  | .vmem => 40
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x6, .f32⟩
  | .hbm, ⟨11, _⟩ => ⟨S6, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x6, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x6, .f32⟩
  | .hbm, ⟨79, _⟩ => ⟨S1600000x1, .f32⟩
  | .hbm, ⟨80, _⟩ => ⟨S1600000x6, .f32⟩
  | .hbm, ⟨81, _⟩ => ⟨S1600000x6, .f32⟩
  | .hbm, ⟨82, _⟩ => ⟨S_, .f32⟩
  | .hbm, ⟨83, _⟩ => ⟨S100000x6, .f32⟩
  | .hbm, ⟨84, _⟩ => ⟨S1600000x1, .i32⟩
  | .hbm, ⟨85, _⟩ => ⟨S100000x6, .f32⟩
  | .hbm, ⟨86, _⟩ => ⟨S1x6, .f32⟩
  | .hbm, ⟨87, _⟩ => ⟨S100000x6, .f32⟩
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S128x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S128x6, .f32⟩
  | .local _ .vmem, ⟨33, _⟩ => ⟨S1000x6, .f32⟩
  | .local _ .vmem, ⟨34, _⟩ => ⟨S1000x6, .f32⟩
  | .local _ .vmem, ⟨35, _⟩ => ⟨S1000x6, .f32⟩
  | .local _ .vmem, ⟨36, _⟩ => ⟨S1000x6, .f32⟩
  | .local _ .vmem, ⟨37, _⟩ => ⟨S1x6, .f32⟩
  | .local _ .vmem, ⟨38, _⟩ => ⟨S1000x6, .f32⟩
  | .local _ .vmem, ⟨39, _⟩ => ⟨S1000x6, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x6 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x6 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x6 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1000x6 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S1000x512_S1000x512_0_0 : ∀ a, (![0, 0] : Fin 2 → Nat) a + S1000x512.size a ≤ S1000x512.size a
  h_S1000x512 : 0 < S1000x512.numel
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  inb_S128x6_S128x6_0_0 : ∀ a, (![0, 0] : Fin 2 → Nat) a + S128x6.size a ≤ S128x6.size a
  h_S128x6 : 0 < S128x6.numel
  inb_S1000x6_S1000x6_0_0 : ∀ a, (![0, 0] : Fin 2 → Nat) a + S1000x6.size a ≤ S1000x6.size a
  h_S1000x6 : 0 < S1000x6.numel
  bcast_S1600000x1_S1600000x6_0_1 : S1600000x1.BroadcastsInDim S1600000x6 (![0, 1] : Fin 2 → Fin S1600000x6.rank)
  bcast_S_S100000x6 : S_.BroadcastsInDim S100000x6 (![] : Fin 0 → Fin S100000x6.rank)
  shapeCasts_S6_S1x6 : S6.ShapeCasts S1x6
  shapeCasts_S1000x6_S1000x6 : S1000x6.ShapeCasts S1000x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1000x6 : S1x6.Broadcasts S1000x6
  dot_S1000x512_S512x128_S1000x128_1_0_0_1_n_n_wf : DotDims.WF S1000x512 S512x128 S1000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x6_S1000x6_1_0_0_1_n_n_wf : DotDims.WF S1000x128 S128x6 S1000x6 [1] [0] [0] [1] [] []
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S100000x128.size a
  hwx2_2 : ∀ i : grid2.Coords, EltTy.bits .f32 = 32 ∨ (Rect.block (s := S100000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S100000x128.size a
  hwx3_2 : ∀ i : grid3.Coords, EltTy.bits .f32 = 32 ∨ (Rect.block (s := S100000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S100000x128.size a
  hwx4_2 : ∀ i : grid4.Coords, EltTy.bits .f32 = 32 ∨ (Rect.block (s := S100000x128) S1000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S100000x128.size a
  hwx5_2 : ∀ i : grid5.Coords, EltTy.bits .f32 = 32 ∨ (Rect.block (s := S100000x128) S1000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S100000x128.size a
  hwx6_0 : ∀ i : grid6.Coords, EltTy.bits .f32 = 32 ∨ (Rect.block (s := S100000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x6.size a ≤ S128x6.size a
  hwx6_1 : ∀ i : grid6.Coords, EltTy.bits .f32 = 32 ∨ (Rect.block (s := S128x6) S128x6.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x6.size a ≤ S100000x6.size a
  hwx6_2 : ∀ i : grid6.Coords, EltTy.bits .f32 = 32 ∨ (Rect.block (s := S100000x6) S1000x6.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x6.size a ≤ S100000x6.size a
  hwx7_0 : ∀ i : grid7.Coords, EltTy.bits .f32 = 32 ∨ (Rect.block (s := S100000x6) S1000x6.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x6.size a ≤ S1x6.size a
  hwx7_1 : ∀ i : grid7.Coords, EltTy.bits .f32 = 32 ∨ (Rect.block (s := S1x6) S1x6.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x6.size a ≤ S100000x6.size a
  hwx7_2 : ∀ i : grid7.Coords, EltTy.bits .f32 = 32 ∨ (Rect.block (s := S100000x6) S1000x6.size (cc7_transform_2 i) (hinb7_2 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x6_S1000x6_1_0_0_1_n_n : DotDims S1000x128 S128x6 S1000x6 where
  lhsContracting := [1]
  rhsContracting := [0]
  lhsNonContracting := [0]
  rhsNonContracting := [1]
  lhsBatch := []
  rhsBatch := []
  wf := dot_S1000x128_S128x6_S1000x6_1_0_0_1_n_n_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S1000x6.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S1000x6.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S1x6.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S1000x6.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x6 : Shape := ⟨2, ![100000, 6]⟩
abbrev S1600000x6 : Shape := ⟨2, ![1600000, 6]⟩
abbrev S1x6 : Shape := ⟨2, ![1, 6]⟩

abbrev nBuf : Space → Nat
  | .hbm => 101
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x6, .f32⟩
  | .hbm, ⟨11, _⟩ => ⟨S6, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x6, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x6, .f32⟩
  | .hbm, ⟨91, _⟩ => ⟨S1600000x1, .f32⟩
  | .hbm, ⟨92, _⟩ => ⟨S1600000x6, .f32⟩
  | .hbm, ⟨93, _⟩ => ⟨S1600000x6, .f32⟩
  | .hbm, ⟨94, _⟩ => ⟨S_, .f32⟩
  | .hbm, ⟨95, _⟩ => ⟨S100000x6, .f32⟩
  | .hbm, ⟨96, _⟩ => ⟨S1600000x1, .i32⟩
  | .hbm, ⟨97, _⟩ => ⟨S100000x6, .f32⟩
  | .hbm, ⟨98, _⟩ => ⟨S1x6, .f32⟩
  | .hbm, ⟨99, _⟩ => ⟨S100000x6, .f32⟩
  | .hbm, ⟨100, _⟩ => ⟨S100000x6, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_c_7 : Ref sig .tc := ⟨.hbm, 82, rfl⟩
abbrev main_v55 : Ref sig .tc := ⟨.hbm, 83, rfl⟩
abbrev main_v56 : Ref sig .tc := ⟨.hbm, 84, rfl⟩
abbrev main_c_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x6_0_1 : S1600000x1.BroadcastsInDim S1600000x6 (![0, 1] : Fin 2 → Fin S1600000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x6_S100000x6_1_0_0_1_n_n_wf : DotDims.WF S100000x128 S128x6 S100000x6 [1] [0] [0] [1] [] []
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x6_S100000x6_1_0_0_1_n_n : DotDims S100000x128 S128x6 S100000x6 where
  lhsContracting := [1]
  rhsContracting := [0]
  lhsNonContracting := [0]
  rhsNonContracting := [1]
  lhsBatch := []
  rhsBatch := []
  wf := dot_S100000x128_S128x6_S100000x6_1_0_0_1_n_n_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf

class Facts : Prop extends Facts₀ where

variable [Facts]
-- ==== Proof.WholeRun.lean ====
/-
  The kernel program's run with every buffer named.

  @main of the kernel program is eight pipelined regions among four stretches of host operations. Its
  buffer contents at each boundary are a fold from the launch memory: a stretch of host operations
  rewrites the buffers it assigns, a region leaves each of its arrays at what its write-backs make of
  it. This module states the one fact the value proof needs of the execution itself: every weakly fair
  execution terminates, nothing faults, and every buffer that outlives the regions ends holding the
  LAST valuation of that fold. Reading the result buffer and the argument buffers off that valuation is
  then pure calculation about the fold, done in the modules that import this one.
-/
import proofs.«106282_j44418551775395_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state the first region is entered from: the buffers that outlive the regions at their launch
    contents, the generator register at some state, nothing owed. -/
abbrev T₀ (c : Dev nD) : sProp 𝕄 :=
  iprop(StableHlo.held (c : Thread nD τ) (Pipeline.ucRefs τ sig) (W0 m ρ c) ∗ R c)

/-- The launch deals the pipelines' ghost state out of the one unit resource. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core's launch holdings give the first thread state. -/
theorem launch_threads :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ |={Set.univ}=> bigSep Finset.univ (T₀ (F := F) m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hh, -, HO, -, Hp, -⟩, -⟩
  imodintro
  isplitl [Hh]; · iexact Hh
  isplitl [Hp]; · iexists _; iexact Hp
  iexists ∅; iexact HO

/-- The last thread state, read against the final memory: every buffer it holds is there at its contents. -/
theorem final_read (c : Dev nD) (s' : Phys nD τ sig (Elt F)) :
    iprop(Tₙ m ρ c ∗ SI s') ⊢ |={Set.univ}=>
      iprop(⌜∀ b ∈ Pipeline.ucRefs τ sig, s'.mem.mem (((c : Thread nD τ)).1, b) = W12 m ρ c b⌝ ∗ SI s') := by
  iintro ⟨⟨Hh, -⟩, HSI⟩
  unfold StableHlo.held
  imodintro
  iapply (pointsTo_read_all (Pipeline.ucRefs τ sig) (fun b => (((c : Thread nD τ)).1, b)) (W12 m ρ c) s')
  isplitl [Hh] <;> iassumption

set_option backward.isDefEq.respectTransparency.types false in
/-- Every weakly fair execution of @main terminates without a fault, and every buffer that outlives the regions
    ends at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := T₀ m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := launch_threads m ρ)
    (QY := fun c s => ∀ b ∈ Pipeline.ucRefs τ sig, s.mem (((c : Thread nD τ)).1, b) = W12 m ρ c b)
    (hfin := final_read m ρ)
    (hQ := fun s h => h)

/-- A buffer that outlives the regions, read out of `run_all`'s post at the place a claim names it. -/
theorem read_at (r : PUnit × MemSt nD τ sig (Elt F))
    (h : ∀ c : Dev nD, ∀ b ∈ Pipeline.ucRefs τ sig, r.2.mem (((c : Thread nD τ)).1, b) = W12 m ρ c b)
    (c : Dev nD) (b : Ref sig .tc) (hb : ¬ (Proc.devRef .tc b : DevRef τ sig).isScoped) :
    r.2.mem ((c : Thread nD τ).loc b) = W12 m ρ c (Proc.devRef .tc b) :=
  h c _ (mem_uc b hb)

end Cert.KernelIdeal.WholeRun

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.LibHostDot.lean ====
/-
  A plain matrix product computed on the host, read at an index, at the extended reals.

  For a rank-2 product `[M, K] · [K, N] → [M, N]` (one contracted axis: the left operand's columns against the right
  operand's rows, no batch axis) the entry at `(p, e)` is the finite sum over the contracted coordinate `k` of
  `lhs (p, k) · rhs (k, e)` — the same sum a kernel's product into a zero block has there. The product's dimension
  record enters only through four coordinate facts about its operand index maps (each a one-line computation for a
  literal record), so the lemma serves any such record at any extents.
-/
import Idealize.ShloMosaic.Lib.ValueIdx
import Idealize.ShloMosaic.PureOps.Ideal.Laws

noncomputable section

namespace Cert.LibHostDot

open Idealize.ShloMosaic Idealize.ShloMosaic.ValueIdx

/-- The host's `[M, K] · [K, N]`, at `(p, e)`: `∑ₖ lhs (p, k) · rhs (k, e)`. The hypotheses say that the record
    contracts ONE axis of extent `K`, that the left operand is read at (output row, contracted coordinate) and the right
    operand at (contracted coordinate, output column). -/
theorem dotGeneral_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    Host.dotGeneral D none lhs rhs (ix2 p e) = ∑ k : Fin K, lhs (ix2 p k) * rhs (ix2 k e) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibHostDot

end
-- ==== Proof.GraphLayer.lean ====
/-
  One graph-convolution layer, index by index, at the extended reals.

  A layer takes node features `X` (one row per node), multiplies them by a weight matrix, sends every node's
  row along the edges (a gather of rows, a scale by the edge weight, a sum into the receiving node's row),
  adds a bias to every row and, for the hidden layers, clamps at zero. The edge step is the same host
  computation in both programs and is never opened here; what this module fixes is the dense part around
  it: the matrix product as a finite sum over the contracted coordinate, the bias added along rows, and the
  clamp, each as a function of the array index. Both forms of the matrix product that occur — a product
  accumulated into a zero block and the host's product — are that sum, entry by entry.
-/
import Idealize.ShloMosaic.Lib.ValueIdx
import Idealize.ShloMosaic.Lib.Pipeline.Value
import Idealize.ShloMosaic.PureOps.Ideal.Laws
import proofs.«106282_j44418551775395_1_alg».proof.Proof.LibPlainDot
import proofs.«106282_j44418551775395_1_alg».proof.Proof.LibHostDot

noncomputable section

namespace Cert.GraphLayer

open Idealize.ShloMosaic Idealize.ShloMosaic.ValueIdx

/-- The dense product: entry `(r, e)` of `X · W` is `∑ₖ X (r, k) · W (k, e)`. -/
def dense {M K N : ℕ} (X : FVec Ideal ⟨2, ![M, K]⟩ .f32) (W : FVec Ideal ⟨2, ![K, N]⟩ .f32) :
    FVec Ideal ⟨2, ![M, N]⟩ .f32 :=
  fun i => ∑ k : Fin K, X (ix2 (i 0) k) * W (ix2 k (i 1))

theorem dense_apply {M K N : ℕ} (X : FVec Ideal ⟨2, ![M, K]⟩ .f32) (W : FVec Ideal ⟨2, ![K, N]⟩ .f32)
    (r : Fin M) (e : Fin N) : dense X W (ix2 r e) = ∑ k : Fin K, X (ix2 r k) * W (ix2 k e) := rfl

/-- A bias, laid out as one row, added to every row: entry `(r, e)` is `A (r, e) + B (0, e)`. -/
def addRow {M N : ℕ} (A : FVec Ideal ⟨2, ![M, N]⟩ .f32) (B : FVec Ideal ⟨2, ![1, N]⟩ .f32) :
    FVec Ideal ⟨2, ![M, N]⟩ .f32 :=
  fun i => A i + B (ix2 0 (i 1))

/-- The clamp at zero, entry by entry (the zero is the float word of `0.0`, the same on both sides). -/
def clamp {M N : ℕ} (A : FVec Ideal ⟨2, ![M, N]⟩ .f32) : FVec Ideal ⟨2, ![M, N]⟩ .f32 :=
  fun i => max (A i) (Ideal.ofBits .f32 0x00000000#32)

/-- A product accumulated into the zero block is the dense product of its operands. -/
theorem matmul_zero_eq_dense {M K N : ℕ}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ .f32) (W : FVec Ideal ⟨2, ![K, N]⟩ .f32) :
    matmul D none X W (constant (F := Ideal) ⟨2, ![M, N]⟩ .f32 0x00000000#32) = dense X W := by
  funext j
  obtain ⟨r, e, rfl⟩ : ∃ (r : Fin M) (e : Fin N), j = ix2 r e := ⟨j 0, j 1, eq_ix2 j⟩
  rw [dense_apply]
  exact Cert.LibPlainDot.matmul_zero_apply D hr hs hl0 hl1 hr0 hr1 X W r e

/-- The host's product is the dense product of its operands. -/
theorem dotGeneral_eq_dense {M K N : ℕ}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ .f32) (W : FVec Ideal ⟨2, ![K, N]⟩ .f32) :
    Host.dotGeneral D none X W = dense X W := by
  funext j
  obtain ⟨r, e, rfl⟩ : ∃ (r : Fin M) (e : Fin N), j = ix2 r e := ⟨j 0, j 1, eq_ix2 j⟩
  rw [dense_apply]
  exact Cert.LibHostDot.dotGeneral_apply D hr hs hl0 hl1 hr0 hr1 X W r e

end Cert.GraphLayer

end
-- ==== Proof.EdgeStep.lean ====
/-
  The edge step of a layer: every node's row of the dense product is sent along the edges.

  For each edge, the row of the source node (the edge's column index, wrapped once if negative) is gathered,
  scaled by the edge's weight, and summed into the row of the receiving node (the edge's row index), starting
  from zeros. Both programs compute this with the same host operations in the same order on the same
  operands, so the proof never opens a gather or a scatter: the step is named here as one function of the
  dense product, the two index lists and the weights — once with the records the kernel program prints,
  once with those the reference prints — and the two namings are the same function.
-/
import proofs.«106282_j44418551775395_1_alg».proof.Proof.Gen.KernelIdeal
import proofs.«106282_j44418551775395_1_alg».proof.Proof.Gen.ReferenceIdeal
import Idealize.ShloMosaic.PureOps.Ideal

noncomputable section

namespace Cert.EdgeStep

open Idealize.ShloMosaic

section KernelSpelling

open Cert.KernelIdeal Cert.KernelIdeal.Facts₀

/-- The edge step on rows of 128 entries, as the kernel program spells it. -/
def kernel128 (S : (⟨S100000x128, .f32⟩ : BufTy).Contents (Elt Ideal))
    (row col : (⟨S1600000, .i32⟩ : BufTy).Contents (Elt Ideal)) (w : (⟨S1600000, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (F := Ideal)
      (Host.gather gather_S100000x128_S1600000x1_S1600000x128_1_0_n_n_0_1_1128 S
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1
        (broadcastInDim S1600000x1 ![0] bcast_S1600000_S1600000x1_0 w)))

/-- The edge step on rows of 6 entries, as the kernel program spells it. -/
def kernel6 (S : (⟨S100000x6, .f32⟩ : BufTy).Contents (Elt Ideal))
    (row col : (⟨S1600000, .i32⟩ : BufTy).Contents (Elt Ideal)) (w : (⟨S1600000, .f32⟩ : BufTy).Contents (Elt Ideal)) :
    (⟨S100000x6, .f32⟩ : BufTy).Contents (Elt Ideal) :=
  Host.scatterAdd (F := Ideal) scatter_S100000x6_S1600000x1_S1600000x6_1_0_0_1
    (broadcastInDim S100000x6 ![] bcast_S_S100000x6 (constant (F := Ideal) S_ .f32 0x00000000#32))
    (broadcastInDim S1600000x1 ![0] bcast_S1600000_S1600000x1_0 row)
    (mulf (F := Ideal)
      (Host.gather gather_S100000x6_S1600000x1_S1600000x6_1_0_n_n_0_1_16 S
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x6 ![0, 1] bcast_S1600000x1_S1600000x6_0_1
        (broadcastInDim S1600000x1 ![0] bcast_S1600000_S1600000x1_0 w)))

end KernelSpelling

section ReferenceSpelling

open Cert.ReferenceIdeal Cert.ReferenceIdeal.Facts₀

/-- The edge step on rows of 128 entries, as the reference spells it. -/
def reference128 (S : (⟨S100000x128, .f32⟩ : BufTy).Contents (Elt Ideal))
    (row col : (⟨S1600000, .i32⟩ : BufTy).Contents (Elt Ideal)) (w : (⟨S1600000, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (F := Ideal)
      (Host.gather gather_S100000x128_S1600000x1_S1600000x128_1_0_n_n_0_1_1128 S
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1
        (broadcastInDim S1600000x1 ![0] bcast_S1600000_S1600000x1_0 w)))

/-- The edge step on rows of 6 entries, as the reference spells it. -/
def reference6 (S : (⟨S100000x6, .f32⟩ : BufTy).Contents (Elt Ideal))
    (row col : (⟨S1600000, .i32⟩ : BufTy).Contents (Elt Ideal)) (w : (⟨S1600000, .f32⟩ : BufTy).Contents (Elt Ideal)) :
    (⟨S100000x6, .f32⟩ : BufTy).Contents (Elt Ideal) :=
  Host.scatterAdd (F := Ideal) scatter_S100000x6_S1600000x1_S1600000x6_1_0_0_1
    (broadcastInDim S100000x6 ![] bcast_S_S100000x6 (constant (F := Ideal) S_ .f32 0x00000000#32))
    (broadcastInDim S1600000x1 ![0] bcast_S1600000_S1600000x1_0 row)
    (mulf (F := Ideal)
      (Host.gather gather_S100000x6_S1600000x1_S1600000x6_1_0_n_n_0_1_16 S
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x6 ![0, 1] bcast_S1600000x1_S1600000x6_0_1
        (broadcastInDim S1600000x1 ![0] bcast_S1600000_S1600000x1_0 w)))

end ReferenceSpelling

/-- The two spellings of the 128-wide step are one function: the printed shapes and dimension records agree
    field by field. -/
theorem reference128_eq : reference128 = kernel128 := rfl

/-- The two spellings of the 6-wide step are one function. -/
theorem reference6_eq : reference6 = kernel6 := rfl

end Cert.EdgeStep

end
-- ==== Proof.HostStretches.lean ====
/-
  The four stretches of host operations between the kernel program's regions, read as functions.

  After each dense product the kernel program runs the same stretch on the host: it wraps the edges' column
  indices, gathers the product's rows, scales them by the edge weights, sums them into the receiving nodes'
  rows starting from zeros, and lays the layer's bias out as one row. Whatever the buffers hold when a
  stretch starts (`W`), afterwards
  * the summed array is the edge step (`EdgeStep`) of the product, the two index lists and the weights as
    the stretch found them;
  * the bias row is the bias vector re-laid as a 1 × n array;
  * a buffer the stretch does not assign — every argument of the program among them — is as it was.
-/
import proofs.«106282_j44418551775395_1_alg».proof.Proof.Gen.KernelIdeal.Frame
import proofs.«106282_j44418551775395_1_alg».proof.Proof.EdgeStep

set_option maxRecDepth 16384

noncomputable section

namespace Cert.KernelIdeal.HostStretches

open Cert.KernelIdeal Cert.KernelIdeal.Gen
open Idealize.ShloMosaic Idealize.ShloMosaic.TcCoe Idealize.SL.Sem Idealize.ShloMosaic.StableHlo

/-- The arguments of the program that some later step still reads: the two index lists, the edge weights, and every
    weight matrix and bias after the first product's. -/
abbrev laterArgs : List (Ref sig .tc) :=
  [main_arg1, main_arg2, main_arg3, main_arg5, main_arg6, main_arg7, main_arg8, main_arg9, main_arg10, main_arg11]

/-! ## The stretch after the first product -/

set_option maxHeartbeats 4000000 in
theorem edges1 (W : Valuation τ sig (Elt Ideal)) :
    StableHlo.after (hostOps1 (F := Ideal)) W (Proc.devRef .tc main_v13)
      = Cert.EdgeStep.kernel128 (W (Proc.devRef .tc main_v0)) (W (Proc.devRef .tc main_arg1))
          (W (Proc.devRef .tc main_arg2)) (W (Proc.devRef .tc main_arg3)) := by
  after_results_simp <;> rfl

theorem bias1 (W : Valuation τ sig (Elt Ideal)) :
    StableHlo.after (hostOps1 (F := Ideal)) W (Proc.devRef .tc main_v14)
      = shapeCast S1x128 (W (Proc.devRef .tc main_arg5)) shapeCasts_S128_S1x128 := by
  after_results_simp <;> rfl

theorem keep1 (W : Valuation τ sig (Elt Ideal)) (b : Ref sig .tc) (hb : b ∈ laterArgs) :
    StableHlo.after (hostOps1 (F := Ideal)) W (Proc.devRef .tc b) = W (Proc.devRef .tc b) := by
  simp only [laterArgs, List.mem_cons, List.mem_singleton, List.not_mem_nil, or_false] at hb
  rcases hb with rfl | rfl | rfl | rfl | rfl | rfl | rfl | rfl | rfl | rfl <;> (after_results_simp <;> rfl)

/-! ## The stretch after the second product -/

set_option maxHeartbeats 4000000 in
theorem edges3 (W : Valuation τ sig (Elt Ideal)) :
    StableHlo.after (hostOps3 (F := Ideal)) W (Proc.devRef .tc main_v29)
      = Cert.EdgeStep.kernel128 (W (Proc.devRef .tc main_v16)) (W (Proc.devRef .tc main_arg1))
          (W (Proc.devRef .tc main_arg2)) (W (Proc.devRef .tc main_arg3)) := by
  after_results_simp <;> rfl

theorem bias3 (W : Valuation τ sig (Elt Ideal)) :
    StableHlo.after (hostOps3 (F := Ideal)) W (Proc.devRef .tc main_v30)
      = shapeCast S1x128 (W (Proc.devRef .tc main_arg7)) shapeCasts_S128_S1x128 := by
  after_results_simp <;> rfl

theorem keep3 (W : Valuation τ sig (Elt Ideal)) (b : Ref sig .tc) (hb : b ∈ laterArgs) :
    StableHlo.after (hostOps3 (F := Ideal)) W (Proc.devRef .tc b) = W (Proc.devRef .tc b) := by
  simp only [laterArgs, List.mem_cons, List.mem_singleton, List.not_mem_nil, or_false] at hb
  rcases hb with rfl | rfl | rfl | rfl | rfl | rfl | rfl | rfl | rfl | rfl <;> (after_results_simp <;> rfl)

/-! ## The stretch after the third product -/

set_option maxHeartbeats 4000000 in
theorem edges5 (W : Valuation τ sig (Elt Ideal)) :
    StableHlo.after (hostOps5 (F := Ideal)) W (Proc.devRef .tc main_v45)
      = Cert.EdgeStep.kernel128 (W (Proc.devRef .tc main_v32)) (W (Proc.devRef .tc main_arg1))
          (W (Proc.devRef .tc main_arg2)) (W (Proc.devRef .tc main_arg3)) := by
  after_results_simp <;> rfl

theorem bias5 (W : Valuation τ sig (Elt Ideal)) :
    StableHlo.after (hostOps5 (F := Ideal)) W (Proc.devRef .tc main_v46)
      = shapeCast S1x128 (W (Proc.devRef .tc main_arg9)) shapeCasts_S128_S1x128 := by
  after_results_simp <;> rfl

theorem keep5 (W : Valuation τ sig (Elt Ideal)) (b : Ref sig .tc) (hb : b ∈ laterArgs) :
    StableHlo.after (hostOps5 (F := Ideal)) W (Proc.devRef .tc b) = W (Proc.devRef .tc b) := by
  simp only [laterArgs, List.mem_cons, List.mem_singleton, List.not_mem_nil, or_false] at hb
  rcases hb with rfl | rfl | rfl | rfl | rfl | rfl | rfl | rfl | rfl | rfl <;> (after_results_simp <;> rfl)

/-! ## The stretch after the fourth product (rows of 6 entries) -/

set_option maxHeartbeats 4000000 in
theorem edges7 (W : Valuation τ sig (Elt Ideal)) :
    StableHlo.after (hostOps7 (F := Ideal)) W (Proc.devRef .tc main_v61)
      = Cert.EdgeStep.kernel6 (W (Proc.devRef .tc main_v48)) (W (Proc.devRef .tc main_arg1))
          (W (Proc.devRef .tc main_arg2)) (W (Proc.devRef .tc main_arg3)) := by
  after_results_simp <;> rfl

theorem bias7 (W : Valuation τ sig (Elt Ideal)) :
    StableHlo.after (hostOps7 (F := Ideal)) W (Proc.devRef .tc main_v62)
      = shapeCast S1x6 (W (Proc.devRef .tc main_arg11)) shapeCasts_S6_S1x6 := by
  after_results_simp <;> rfl

end Cert.KernelIdeal.HostStretches

end
-- ==== Proof.DenseRegion0.lean ====
/-
  The first dense product: X · W₁, computed in blocks of 1000 rows.

  The region's grid has 100 points. Point `t` fetches rows `1000·t … 1000·t + 999` of the feature matrix
  (all 512 columns) and the whole weight matrix, multiplies them into a zero block, and writes the
  1000 × 128 block back to rows `1000·t … 1000·t + 999` of the output. An entry `(r, e)` of a product
  depends only on row `r` of the left operand, so block `t` of the output is block `t` of the dense product
  of the WHOLE arrays; the 100 blocks tile the output's rows, hence the output array ends holding that
  product. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.DenseRegion0

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-! ## The block product's operand indices: rows of the left operand, columns of the right, one contracted axis -/

theorem lhs_row (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide),
    dif_pos (show (0 : Fin S1000x512.rank) ∈ dot_S1000x512_S512x128_S1000x128_1_0_0_1_n_n.lhsNonContracting by decide)]
  rfl
theorem lhs_contracted (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q
theorem rhs_contracted (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q
theorem rhs_column (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide),
    dif_pos (show (1 : Fin S512x128.rank) ∈ dot_S1000x512_S512x128_S1000x128_1_0_0_1_n_n.rhsNonContracting by decide)]
  rfl

/-- The body's one stored value is the dense product of the two loaded blocks. -/
theorem payload_eq (x0 : Vec Ideal S1000x512 .f32) (x1 : Vec Ideal S512x128 .f32) :
    k0_pay1 x0 x1 = dense x0 x1 := by
  unfold k0_pay1
  exact matmul_zero_eq_dense dot_S1000x512_S512x128_S1000x128_1_0_0_1_n_n rfl rfl lhs_row lhs_contracted rhs_contracted rhs_column x0 x1

/-! ## From blocks to the array -/

/-- The index maps over the grid: the features' and the output's row blocks move with the point, every column
    block and the weight's block stay at zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense product of the whole arrays. -/
theorem flushed_eq (c : Dev nD) (t : Fin cfg0.N) :
    (dat0 V c).flushed 2 t
      = ((cfg0.win 2).blk t).view.read (Elt Ideal) (dense (V c main_arg0) (V c main_arg4)) := by
  show (cfg0.win 2).cut (grid0.coords t) ((dat0 V c).after 2 t) = _
  rw [after0_2]
  unfold out0_2
  rw [View.canon_unit_zero origin2]
  simp only [View.ld_unit_zero (S := S1000x512) origin2, View.ld_unit_zero (S := S512x128) origin2]
  rw [payload_eq]
  obtain ⟨e0, e1, e2, e3, e4, e5⟩ := index_facts t
  funext j
  show dense (iblk0 V c 0 t) (iblk0 V c 1 t) j
    = dense (V c main_arg0) (V c main_arg4) (((cfg0.win 2).blk t).view.emb j)
  unfold dense
  refine Finset.sum_congr rfl fun k _ => ?_
  have hx : iblk0 V c 0 t (ix2 (j 0) k)
      = V c main_arg0 (ix2 ((((cfg0.win 2).blk t).view.emb j) 0) k) := by
    show V c main_arg0 (((cfg0.win 0).blk t).view.emb (ix2 (j 0) k)) = _
    refine congrArg _ (funext fun a => Fin.ext ?_)
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 512 + 1 * k.val = k.val
      omega
  have hw : iblk0 V c 1 t (ix2 k (j 1))
      = V c main_arg4 (ix2 k ((((cfg0.win 2).blk t).view.emb j) 1)) := by
    show V c main_arg4 (((cfg0.win 1).blk t).view.emb (ix2 k (j 1))) = _
    refine congrArg _ (funext fun a => Fin.ext ?_)
    match a with
    | ⟨0, _⟩ =>
      show win0_1.index t (0 : Fin 2) * 512 + 1 * k.val = k.val
      omega
    | ⟨1, _⟩ =>
      show win0_1.index t (1 : Fin 2) * 128 + 1 * (j 1).val = win0_2.index t (1 : Fin 2) * 128 + 1 * (j 1).val
      omega
  exact congrArg₂ (· * ·) hx hw

/-- An index of the output lies in point `t`'s block iff each coordinate lies in the block's range on its axis. -/
theorem mem_block (t : Fin cfg0.N) (i : S100000x128.Idx) :
    i ∈ ((cfg0.win 2).blk t).view.set ↔ ∀ a : Fin 2, win0_2.index t a * S1000x128.size a ≤ (i a).val
      ∧ (i a).val < win0_2.index t a * S1000x128.size a + S1000x128.size a := by
  show i ∈ ((View.whole main_v0).slice (win0_2.rect t)).set ↔ _
  rw [View.set_slice_whole, Rect.mem_set_unit]
  exact Iff.rfl

/-- Row `r` of the output lies in the block of point `r / 1000`: the blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 1000 :=
    ⟨⟨(i 0).val / 1000, by show (i 0).val / 1000 < grid0.N; rw [N_0]; omega⟩, rfl⟩
  obtain ⟨e0, e1, e2, e3, e4, e5⟩ := index_facts t
  refine ⟨t, flush0_2 t, ?_⟩
  rw [mem_block]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 128 ≤ (i 1).val ∧ (i 1).val < win0_2.index t (1 : Fin 2) * 128 + 128
    omega

/-- The output array after the region: the dense product of the two input arrays as the region found them. -/
theorem final (c : Dev nD) :
    (dat0 V c).arrAt 2 cfg0.N = dense (V c main_arg0) (V c main_arg4) :=
  (dat0 V c).arrAt_eq_of_cover 2 (dense (V c main_arg0) (V c main_arg4)) (fun t _ => flushed_eq V c t) covered

end Cert.KernelIdeal.DenseRegion0

end
-- ==== Proof.BiasRegion1.lean ====
/-
  The first layer's epilogue: a bias added to every row, then the clamp at zero, in blocks of 1000 rows.

  Point `t` of the region's 100 fetches rows `1000·t … 1000·t + 999` of the aggregated array and the bias
  (one row of 128 entries, the same at every point), adds the bias row to each of the 1000 rows, clamps at
  zero, and writes the block back to the same rows of the output. The result at `(r, e)` depends only on the
  aggregated entry `(r, e)` and on the bias entry `e`, so block `t` of the output is block `t` of one
  whole-array function; the blocks tile the rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.BiasRegion1

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's one stored value: the bias row added to every row of the block, clamped at zero. -/
theorem payload_eq (x0 : Vec Ideal S1000x128 .f32) (x1 : Vec Ideal S1x128 .f32) :
    k1_pay1 x0 x1 = clamp (addRow x0 x1) := by
  funext j
  obtain ⟨p, e, rfl⟩ : ∃ (p : Fin 1000) (e : Fin 128), j = ix2 p e := ⟨j 0, j 1, eq_ix2 j⟩
  have ha : shapeCast S1000x128 x0 shapeCasts_S1000x128_S1000x128 = x0 := shapeCast_self x0 _
  have hb : broadcastTo S1000x128 (shapeCast S1x128 x1 shapeCasts_S1x128_S1x128) broadcasts_S1x128_S1000x128 (ix2 p e)
      = x1 (ix2 0 e) := by
    rw [shapeCast_self]
    exact broadcastTo_apply x1 _ (ix2 p e) (ix2 0 e) (fun a => by match a with | ⟨0, _⟩ => rfl | ⟨1, _⟩ => rfl)
  show max (shapeCast S1000x128 x0 shapeCasts_S1000x128_S1000x128 (ix2 p e)
      + broadcastTo S1000x128 (shapeCast S1x128 x1 shapeCasts_S1x128_S1x128) broadcasts_S1x128_S1000x128 (ix2 p e))
      (Ideal.ofBits .f32 0x00000000#32) = max (x0 (ix2 p e) + x1 (ix2 0 e)) (Ideal.ofBits .f32 0x00000000#32)
  rw [ha, hb]

/-! ## From blocks to the array -/

/-- The index maps over the grid: the aggregated array's and the output's row blocks move with the point, every
    column block and the bias row's block stay at zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole arrays' biased, clamped sum. -/
theorem flushed_eq (c : Dev nD) (t : Fin cfg1.N) :
    (dat1 V c).flushed 2 t
      = ((cfg1.win 2).blk t).view.read (Elt Ideal) (clamp (addRow (V c main_v13) (V c main_v14))) := by
  show (cfg1.win 2).cut (grid1.coords t) ((dat1 V c).after 2 t) = _
  rw [after1_2]
  unfold out1_2
  rw [View.canon_unit_zero origin2]
  simp only [View.ld_unit_zero (S := S1000x128) origin2, View.ld_unit_zero (S := S1x128) origin2]
  rw [payload_eq]
  obtain ⟨e0, e1, e2, e3, e4, e5⟩ := index_facts t
  funext j
  show clamp (addRow (iblk1 V c 0 t) (iblk1 V c 1 t)) j
    = clamp (addRow (V c main_v13) (V c main_v14)) (((cfg1.win 2).blk t).view.emb j)
  unfold clamp addRow
  have hx : iblk1 V c 0 t j = V c main_v13 (((cfg1.win 2).blk t).view.emb j) := by
    show V c main_v13 (((cfg1.win 0).blk t).view.emb j) = _
    refine congrArg _ (funext fun a => Fin.ext ?_)
    match a with
    | ⟨0, _⟩ =>
      show win1_0.index t (0 : Fin 2) * 1000 + 1 * (j 0).val = win1_2.index t (0 : Fin 2) * 1000 + 1 * (j 0).val
      omega
    | ⟨1, _⟩ =>
      show win1_0.index t (1 : Fin 2) * 128 + 1 * (j 1).val = win1_2.index t (1 : Fin 2) * 128 + 1 * (j 1).val
      omega
  have hb : iblk1 V c 1 t (ix2 0 (j 1))
      = V c main_v14 (ix2 0 ((((cfg1.win 2).blk t).view.emb j) 1)) := by
    show V c main_v14 (((cfg1.win 1).blk t).view.emb (ix2 0 (j 1))) = _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega
  exact congrArg (fun v => max v (Ideal.ofBits .f32 0x00000000#32)) (congrArg₂ (· + ·) hx hb)

/-- An index of the output lies in point `t`'s block iff each coordinate lies in the block's range on its axis. -/
theorem mem_block (t : Fin cfg1.N) (i : S100000x128.Idx) :
    i ∈ ((cfg1.win 2).blk t).view.set ↔ ∀ a : Fin 2, win1_2.index t a * S1000x128.size a ≤ (i a).val
      ∧ (i a).val < win1_2.index t a * S1000x128.size a + S1000x128.size a := by
  show i ∈ ((View.whole main_v15).slice (win1_2.rect t)).set ↔ _
  rw [View.set_slice_whole, Rect.mem_set_unit]
  exact Iff.rfl

/-- Row `r` of the output lies in the block of point `r / 1000`: the blocks cover the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 1000 :=
    ⟨⟨(i 0).val / 1000, by show (i 0).val / 1000 < grid1.N; rw [N_1]; omega⟩, rfl⟩
  obtain ⟨e0, e1, e2, e3, e4, e5⟩ := index_facts t
  refine ⟨t, flush1_2 t, ?_⟩
  rw [mem_block]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 128 ≤ (i 1).val ∧ (i 1).val < win1_2.index t (1 : Fin 2) * 128 + 128
    omega

/-- The output array after the region: the aggregated array as the region found it, plus the bias row on every
    row, clamped at zero. -/
theorem final (c : Dev nD) :
    (dat1 V c).arrAt 2 cfg1.N = clamp (addRow (V c main_v13) (V c main_v14)) :=
  (dat1 V c).arrAt_eq_of_cover 2 (clamp (addRow (V c main_v13) (V c main_v14))) (fun t _ => flushed_eq V c t) covered

end Cert.KernelIdeal.BiasRegion1

end
-- ==== Proof.DenseRegion2.lean ====
/-
  The second dense product: H₁ · W₂, computed in blocks of 1000 rows.

  The region's grid has 100 points. Point `t` fetches rows `1000·t … 1000·t + 999` of the first layer's
  output (all 128 columns) and the whole weight matrix, multiplies them into a zero block, and writes the
  1000 × 128 block back to the same rows of the output. An entry `(r, e)` of a product depends only on
  row `r` of the left operand, so block `t` of the output is block `t` of the dense product of the WHOLE
  arrays; the 100 blocks tile the output's rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.DenseRegion2

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-! ## The block product's operand indices: rows of the left operand, columns of the right, one contracted axis -/

theorem lhs_row (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
theorem lhs_contracted (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_contracted (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_column (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The body's one stored value is the dense product of the two loaded blocks (the left block passes through a
    change of shape to the same shape, which is the identity). -/
theorem payload_eq (x0 : Vec Ideal S1000x128 .f32) (x1 : Vec Ideal S128x128 .f32) :
    k2_pay1 x0 x1 = dense x0 x1 := by
  have ha : shapeCast S1000x128 x0 shapeCasts_S1000x128_S1000x128 = x0 := shapeCast_self x0 _
  unfold k2_pay1
  show matmul dot_S1000x128_S128x128_S1000x128_1_0_0_1_n_n none (shapeCast S1000x128 x0 shapeCasts_S1000x128_S1000x128) x1
    (constant (F := Ideal) S1000x128 .f32 0x00000000#32) = dense x0 x1
  rw [ha]
  exact matmul_zero_eq_dense dot_S1000x128_S128x128_S1000x128_1_0_0_1_n_n rfl rfl lhs_row lhs_contracted rhs_contracted
    rhs_column x0 x1

/-! ## From blocks to the array -/

/-- The index maps over the grid: the left operand's and the output's row blocks move with the point, every column
    block and the weight's block stay at zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the dense product of the whole arrays. -/
theorem flushed_eq (c : Dev nD) (t : Fin cfg2.N) :
    (dat2 V c).flushed 2 t
      = ((cfg2.win 2).blk t).view.read (Elt Ideal) (dense (V c main_v15) (V c main_arg6)) := by
  show (cfg2.win 2).cut (grid2.coords t) ((dat2 V c).after 2 t) = _
  rw [after2_2]
  unfold out2_2
  rw [View.canon_unit_zero origin2]
  simp only [View.ld_unit_zero (S := S1000x128) origin2, View.ld_unit_zero (S := S128x128) origin2]
  rw [payload_eq]
  obtain ⟨e0, e1, e2, e3, e4, e5⟩ := index_facts t
  funext j
  show dense (iblk2 V c 0 t) (iblk2 V c 1 t) j
    = dense (V c main_v15) (V c main_arg6) (((cfg2.win 2).blk t).view.emb j)
  unfold dense
  refine Finset.sum_congr rfl fun k _ => ?_
  have hx : iblk2 V c 0 t (ix2 (j 0) k)
      = V c main_v15 (ix2 ((((cfg2.win 2).blk t).view.emb j) 0) k) := by
    show V c main_v15 (((cfg2.win 0).blk t).view.emb (ix2 (j 0) k)) = _
    refine congrArg _ (funext fun a => Fin.ext ?_)
    match a with
    | ⟨0, _⟩ =>
      show win2_0.index t (0 : Fin 2) * 1000 + 1 * (j 0).val = win2_2.index t (0 : Fin 2) * 1000 + 1 * (j 0).val
      omega
    | ⟨1, _⟩ =>
      show win2_0.index t (1 : Fin 2) * 128 + 1 * k.val = k.val
      omega
  have hw : iblk2 V c 1 t (ix2 k (j 1))
      = V c main_arg6 (ix2 k ((((cfg2.win 2).blk t).view.emb j) 1)) := by
    show V c main_arg6 (((cfg2.win 1).blk t).view.emb (ix2 k (j 1))) = _
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega
  exact congrArg₂ (· * ·) hx hw

/-- An index of the output lies in point `t`'s block iff each coordinate lies in the block's range on its axis. -/
theorem mem_block (t : Fin cfg2.N) (i : S100000x128.Idx) :
    i ∈ ((cfg2.win 2).blk t).view.set ↔ ∀ a : Fin 2, win2_2.index t a * S1000x128.size a ≤ (i a).val
      ∧ (i a).val < win2_2.index t a * S1000x128.size a + S1000x128.size a := by
  show i ∈ ((View.whole main_v16).slice (win2_2.rect t)).set ↔ _
  rw [View.set_slice_whole, Rect.mem_set_unit]
  exact Iff.rfl

/-- Row `r` of the output lies in the block of point `r / 1000`: the blocks cover the array. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 1000 :=
    ⟨⟨(i 0).val / 1000, by show (i 0).val / 1000 < grid2.N; rw [N_2]; omega⟩, rfl⟩
  obtain ⟨e0, e1, e2, e3, e4, e5⟩ := index_facts t
  refine ⟨t, flush2_2 t, ?_⟩
  rw [mem_block]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 128 ≤ (i 1).val ∧ (i 1).val < win2_2.index t (1 : Fin 2) * 128 + 128
    omega

/-- The output array after the region: the dense product of the two input arrays as the region found them. -/
theorem final (c : Dev nD) :
    (dat2 V c).arrAt 2 cfg2.N = dense (V c main_v15) (V c main_arg6) :=
  (dat2 V c).arrAt_eq_of_cover 2 (dense (V c main_v15) (V c main_arg6)) (fun t _ => flushed_eq V c t) covered

end Cert.KernelIdeal.DenseRegion2

end
-- ==== Proof.BiasRegion3.lean ====
/-
  The second layer's epilogue: a bias added to every row, then the clamp at zero, in blocks of 1000 rows.

  Point `t` of the region's 100 fetches rows `1000·t … 1000·t + 999` of the aggregated array and the bias
  (one row of 128 entries, the same at every point), adds the bias row to each of the 1000 rows, clamps at
  zero, and writes the block back to the same rows of the output. The result at `(r, e)` depends only on the
  aggregated entry `(r, e)` and on the bias entry `e`, so block `t` of the output is block `t` of one
  whole-array function; the blocks tile the rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.BiasRegion3

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's one stored value: the bias row added to every row of the block, clamped at zero. -/
theorem payload_eq (x0 : Vec Ideal S1000x128 .f32) (x1 : Vec Ideal S1x128 .f32) :
    k3_pay1 x0 x1 = clamp (addRow x0 x1) := by
  funext j
  obtain ⟨p, e, rfl⟩ : ∃ (p : Fin 1000) (e : Fin 128), j = ix2 p e := ⟨j 0, j 1, eq_ix2 j⟩
  have ha : shapeCast S1000x128 x0 shapeCasts_S1000x128_S1000x128 = x0 := shapeCast_self x0 _
  have hb : broadcastTo S1000x128 (shapeCast S1x128 x1 shapeCasts_S1x128_S1x128) broadcasts_S1x128_S1000x128 (ix2 p e)
      = x1 (ix2 0 e) := by
    rw [shapeCast_self]
    exact broadcastTo_apply x1 _ (ix2 p e) (ix2 0 e) (fun a => by match a with | ⟨0, _⟩ => rfl | ⟨1, _⟩ => rfl)
  show max (shapeCast S1000x128 x0 shapeCasts_S1000x128_S1000x128 (ix2 p e)
      + broadcastTo S1000x128 (shapeCast S1x128 x1 shapeCasts_S1x128_S1x128) broadcasts_S1x128_S1000x128 (ix2 p e))
      (Ideal.ofBits .f32 0x00000000#32) = max (x0 (ix2 p e) + x1 (ix2 0 e)) (Ideal.ofBits .f32 0x00000000#32)
  rw [ha, hb]

/-! ## From blocks to the array -/

/-- The index maps over the grid: the aggregated array's and the output's row blocks move with the point, every
    column block and the bias row's block stay at zero. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole arrays' biased, clamped sum. -/
theorem flushed_eq (c : Dev nD) (t : Fin cfg3.N) :
    (dat3 V c).flushed 2 t
      = ((cfg3.win 2).blk t).view.read (Elt Ideal) (clamp (addRow (V c main_v29) (V c main_v30))) := by
  show (cfg3.win 2).cut (grid3.coords t) ((dat3 V c).after 2 t) = _
  rw [after3_2]
  unfold out3_2
  rw [View.canon_unit_zero origin2]
  simp only [View.ld_unit_zero (S := S1000x128) origin2, View.ld_unit_zero (S := S1x128) origin2]
  rw [payload_eq]
  obtain ⟨e0, e1, e2, e3, e4, e5⟩ := index_facts t
  funext j
  show clamp (addRow (iblk3 V c 0 t) (iblk3 V c 1 t)) j
    = clamp (addRow (V c main_v29) (V c main_v30)) (((cfg3.win 2).blk t).view.emb j)
  unfold clamp addRow
  have hx : iblk3 V c 0 t j = V c main_v29 (((cfg3.win 2).blk t).view.emb j) := by
    show V c main_v29 (((cfg3.win 0).blk t).view.emb j) = _
    refine congrArg _ (funext fun a => Fin.ext ?_)
    match a with
    | ⟨0, _⟩ =>
      show win3_0.index t (0 : Fin 2) * 1000 + 1 * (j 0).val = win3_2.index t (0 : Fin 2) * 1000 + 1 * (j 0).val
      omega
    | ⟨1, _⟩ =>
      show win3_0.index t (1 : Fin 2) * 128 + 1 * (j 1).val = win3_2.index t (1 : Fin 2) * 128 + 1 * (j 1).val
      omega
  have hb : iblk3 V c 1 t (ix2 0 (j 1))
      = V c main_v30 (ix2 0 ((((cfg3.win 2).blk t).view.emb j) 1)) := by
    show V c main_v30 (((cfg3.win 1).blk t).view.emb (ix2 0 (j 1))) = _
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = win3_2.index t (1 : Fin 2) * 128 + 1 * (j 1).val
      omega
  exact congrArg (fun v => max v (Ideal.ofBits .f32 0x00000000#32)) (congrArg₂ (· + ·) hx hb)

/-- An index of the output lies in point `t`'s block iff each coordinate lies in the block's range on its axis. -/
theorem mem_block (t : Fin cfg3.N) (i : S100000x128.Idx) :
    i ∈ ((cfg3.win 2).blk t).view.set ↔ ∀ a : Fin 2, win3_2.index t a * S1000x128.size a ≤ (i a).val
      ∧ (i a).val < win3_2.index t a * S1000x128.size a + S1000x128.size a := by
  show i ∈ ((View.whole main_v31).slice (win3_2.rect t)).set ↔ _
  rw [View.set_slice_whole, Rect.mem_set_unit]
  exact Iff.rfl

/-- Row `r` of the output lies in the block of point `r / 1000`: the blocks cover the array. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 1000 :=
    ⟨⟨(i 0).val / 1000, by show (i 0).val / 1000 < grid3.N; rw [N_3]; omega⟩, rfl⟩
  obtain ⟨e0, e1, e2, e3, e4, e5⟩ := index_facts t
  refine ⟨t, flush3_2 t, ?_⟩
  rw [mem_block]
  intro a
  match a with
  | ⟨0, _⟩ =>
    show win3_2.index t (0 : Fin 2) * 1000 ≤ (i 0).val ∧ (i 0).val < win3_2.index t (0 : Fin 2) * 1000 + 1000
    omega
  | ⟨1, _⟩ =>
    show win3_2.index t (1 : Fin 2) * 128 ≤ (i 1).val ∧ (i 1).val < win3_2.index t (1 : Fin 2) * 128 + 128
    omega

/-- The output array after the region: the aggregated array as the region found it, plus the bias row on every
    row, clamped at zero. -/
theorem final (c : Dev nD) :
    (dat3 V c).arrAt 2 cfg3.N = clamp (addRow (V c main_v29) (V c main_v30)) :=
  (dat3 V c).arrAt_eq_of_cover 2 (clamp (addRow (V c main_v29) (V c main_v30))) (fun t _ => flushed_eq V c t) covered

end Cert.KernelIdeal.BiasRegion3

end
-- ==== Proof.DenseRegion4.lean ====
/-
  The third dense product: H₂ · W₃, computed in blocks of 1000 rows.

  The region's grid has 100 points. Point `t` fetches rows `1000·t … 1000·t + 999` of the second layer's
  output (all 128 columns) and the whole weight matrix, multiplies them into a zero block, and writes the
  1000 × 128 block back to the same rows of the output. An entry `(r, e)` of a product depends only on
  row `r` of the left operand, so block `t` of the output is block `t` of the dense product of the WHOLE
  arrays; the 100 blocks tile the output's rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.DenseRegion4

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-! ## The block product's operand indices: rows of the left operand, columns of the right, one contracted axis -/

theorem lhs_row (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
theorem lhs_contracted (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_contracted (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_column (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The body's one stored value is the dense product of the two loaded blocks (the left block passes through a
    change of shape to the same shape, which is the identity). -/
theorem payload_eq (x0 : Vec Ideal S1000x128 .f32) (x1 : Vec Ideal S128x128 .f32) :
    k4_pay1 x0 x1 = dense x0 x1 := by
  have ha : shapeCast S1000x128 x0 shapeCasts_S1000x128_S1000x128 = x0 := shapeCast_self x0 _
  unfold k4_pay1
  show matmul dot_S1000x128_S128x128_S1000x128_1_0_0_1_n_n none (shapeCast S1000x128 x0 shapeCasts_S1000x128_S1000x128) x1
    (constant (F := Ideal) S1000x128 .f32 0x00000000#32) = dense x0 x1
  rw [ha]
  exact matmul_zero_eq_dense dot_S1000x128_S128x128_S1000x128_1_0_0_1_n_n rfl rfl lhs_row lhs_contracted rhs_contracted
    rhs_column x0 x1

/-! ## From blocks to the array -/

/-- The index maps over the grid: the left operand's and the output's row blocks move with the point, every column
    block and the weight's block stay at zero. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the dense product of the whole arrays. -/
theorem flushed_eq (c : Dev nD) (t : Fin cfg4.N) :
    (dat4 V c).flushed 2 t
      = ((cfg4.win 2).blk t).view.read (Elt Ideal) (dense (V c main_v31) (V c main_arg8)) := by
  show (cfg4.win 2).cut (grid4.coords t) ((dat4 V c).after 2 t) = _
  rw [after4_2]
  unfold out4_2
  rw [View.canon_unit_zero origin2]
  simp only [View.ld_unit_zero (S := S1000x128) origin2, View.ld_unit_zero (S := S128x128) origin2]
  rw [payload_eq]
  obtain ⟨e0, e1, e2, e3, e4, e5⟩ := index_facts t
  funext j
  show dense (iblk4 V c 0 t) (iblk4 V c 1 t) j
    = dense (V c main_v31) (V c main_arg8) (((cfg4.win 2).blk t).view.emb j)
  unfold dense
  refine Finset.sum_congr rfl fun k _ => ?_
  have hx : iblk4 V c 0 t (ix2 (j 0) k)
      = V c main_v31 (ix2 ((((cfg4.win 2).blk t).view.emb j) 0) k) := by
    show V c main_v31 (((cfg4.win 0).blk t).view.emb (ix2 (j 0) k)) = _
    refine congrArg _ (funext fun a => Fin.ext ?_)
    match a with
    | ⟨0, _⟩ =>
      show win4_0.index t (0 : Fin 2) * 1000 + 1 * (j 0).val = win4_2.index t (0 : Fin 2) * 1000 + 1 * (j 0).val
      omega
    | ⟨1, _⟩ =>
      show win4_0.index t (1 : Fin 2) * 128 + 1 * k.val = k.val
      omega
  have hw : iblk4 V c 1 t (ix2 k (j 1))
      = V c main_arg8 (ix2 k ((((cfg4.win 2).blk t).view.emb j) 1)) := by
    show V c main_arg8 (((cfg4.win 1).blk t).view.emb (ix2 k (j 1))) = _
    refine congrArg _ (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega
  exact congrArg₂ (· * ·) hx hw

/-- An index of the output lies in point `t`'s block iff each coordinate lies in the block's range on its axis. -/
theorem mem_block (t : Fin cfg4.N) (i : S100000x128.Idx) :
    i ∈ ((cfg4.win 2).blk t).view.set ↔ ∀ a : Fin 2, win4_2.index t a * S1000x128.size a ≤ (i a).val
      ∧ (i a).val < win4_2.index t a * S1000x128.size a + S1000x128.size a := by
  show i ∈ ((View.whole main_v32).slice (win4_2.rect t)).set ↔ _
  rw [View.set_slice_whole, Rect.mem_set_unit]
  exact Iff.rfl

/-- Row `r` of the output lies in the block of point `r / 1000`: the blocks cover the array. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 1000 :=
    ⟨⟨(i 0).val / 1000, by show (i 0).val / 1000 < grid4.N; rw [N_4]; omega⟩, rfl⟩
  obtain ⟨e0, e1, e2, e3, e4, e5⟩ := index_facts t
  refine ⟨t, flush4_2 t, ?_⟩
  rw [mem_block]
  intro a
  match a with
  | ⟨0, _⟩ =>
    show win4_2.index t (0 : Fin 2) * 1000 ≤ (i 0).val ∧ (i 0).val < win4_2.index t (0 : Fin 2) * 1000 + 1000
    omega
  | ⟨1, _⟩ =>
    show win4_2.index t (1 : Fin 2) * 128 ≤ (i 1).val ∧ (i 1).val < win4_2.index t (1 : Fin 2) * 128 + 128
    omega

/-- The output array after the region: the dense product of the two input arrays as the region found them. -/
theorem final (c : Dev nD) :
    (dat4 V c).arrAt 2 cfg4.N = dense (V c main_v31) (V c main_arg8) :=
  (dat4 V c).arrAt_eq_of_cover 2 (dense (V c main_v31) (V c main_arg8)) (fun t _ => flushed_eq V c t) covered

end Cert.KernelIdeal.DenseRegion4

end
-- ==== Proof.BiasRegion5.lean ====
/-
  The third layer's epilogue: a bias added to every row, then the clamp at zero, in blocks of 1000 rows.

  Point `t` of the region's 100 fetches rows `1000·t … 1000·t + 999` of the aggregated array and the bias
  (one row of 128 entries, the same at every point), adds the bias row to each of the 1000 rows, clamps at
  zero, and writes the block back to the same rows of the output. The result at `(r, e)` depends only on the
  aggregated entry `(r, e)` and on the bias entry `e`, so block `t` of the output is block `t` of one
  whole-array function; the blocks tile the rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.BiasRegion5

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's one stored value: the bias row added to every row of the block, clamped at zero. -/
theorem payload_eq (x0 : Vec Ideal S1000x128 .f32) (x1 : Vec Ideal S1x128 .f32) :
    k5_pay1 x0 x1 = clamp (addRow x0 x1) := by
  funext j
  obtain ⟨p, e, rfl⟩ : ∃ (p : Fin 1000) (e : Fin 128), j = ix2 p e := ⟨j 0, j 1, eq_ix2 j⟩
  have ha : shapeCast S1000x128 x0 shapeCasts_S1000x128_S1000x128 = x0 := shapeCast_self x0 _
  have hb : broadcastTo S1000x128 (shapeCast S1x128 x1 shapeCasts_S1x128_S1x128) broadcasts_S1x128_S1000x128 (ix2 p e)
      = x1 (ix2 0 e) := by
    rw [shapeCast_self]
    exact broadcastTo_apply x1 _ (ix2 p e) (ix2 0 e) (fun a => by match a with | ⟨0, _⟩ => rfl | ⟨1, _⟩ => rfl)
  show max (shapeCast S1000x128 x0 shapeCasts_S1000x128_S1000x128 (ix2 p e)
      + broadcastTo S1000x128 (shapeCast S1x128 x1 shapeCasts_S1x128_S1x128) broadcasts_S1x128_S1000x128 (ix2 p e))
      (Ideal.ofBits .f32 0x00000000#32) = max (x0 (ix2 p e) + x1 (ix2 0 e)) (Ideal.ofBits .f32 0x00000000#32)
  rw [ha, hb]

/-! ## From blocks to the array -/

/-- The index maps over the grid: the aggregated array's and the output's row blocks move with the point, every
    column block and the bias row's block stay at zero. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole arrays' biased, clamped sum. -/
theorem flushed_eq (c : Dev nD) (t : Fin cfg5.N) :
    (dat5 V c).flushed 2 t
      = ((cfg5.win 2).blk t).view.read (Elt Ideal) (clamp (addRow (V c main_v45) (V c main_v46))) := by
  show (cfg5.win 2).cut (grid5.coords t) ((dat5 V c).after 2 t) = _
  rw [after5_2]
  unfold out5_2
  rw [View.canon_unit_zero origin2]
  simp only [View.ld_unit_zero (S := S1000x128) origin2, View.ld_unit_zero (S := S1x128) origin2]
  rw [payload_eq]
  obtain ⟨e0, e1, e2, e3, e4, e5⟩ := index_facts t
  funext j
  show clamp (addRow (iblk5 V c 0 t) (iblk5 V c 1 t)) j
    = clamp (addRow (V c main_v45) (V c main_v46)) (((cfg5.win 2).blk t).view.emb j)
  unfold clamp addRow
  have hx : iblk5 V c 0 t j = V c main_v45 (((cfg5.win 2).blk t).view.emb j) := by
    show V c main_v45 (((cfg5.win 0).blk t).view.emb j) = _
    refine congrArg _ (funext fun a => Fin.ext ?_)
    match a with
    | ⟨0, _⟩ =>
      show win5_0.index t (0 : Fin 2) * 1000 + 1 * (j 0).val = win5_2.index t (0 : Fin 2) * 1000 + 1 * (j 0).val
      omega
    | ⟨1, _⟩ =>
      show win5_0.index t (1 : Fin 2) * 128 + 1 * (j 1).val = win5_2.index t (1 : Fin 2) * 128 + 1 * (j 1).val
      omega
  have hb : iblk5 V c 1 t (ix2 0 (j 1))
      = V c main_v46 (ix2 0 ((((cfg5.win 2).blk t).view.emb j) 1)) := by
    show V c main_v46 (((cfg5.win 1).blk t).view.emb (ix2 0 (j 1))) = _
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 128 + 1 * (j 1).val = win5_2.index t (1 : Fin 2) * 128 + 1 * (j 1).val
      omega
  exact congrArg (fun v => max v (Ideal.ofBits .f32 0x00000000#32)) (congrArg₂ (· + ·) hx hb)

/-- An index of the output lies in point `t`'s block iff each coordinate lies in the block's range on its axis. -/
theorem mem_block (t : Fin cfg5.N) (i : S100000x128.Idx) :
    i ∈ ((cfg5.win 2).blk t).view.set ↔ ∀ a : Fin 2, win5_2.index t a * S1000x128.size a ≤ (i a).val
      ∧ (i a).val < win5_2.index t a * S1000x128.size a + S1000x128.size a := by
  show i ∈ ((View.whole main_v47).slice (win5_2.rect t)).set ↔ _
  rw [View.set_slice_whole, Rect.mem_set_unit]
  exact Iff.rfl

/-- Row `r` of the output lies in the block of point `r / 1000`: the blocks cover the array. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 1000 :=
    ⟨⟨(i 0).val / 1000, by show (i 0).val / 1000 < grid5.N; rw [N_5]; omega⟩, rfl⟩
  obtain ⟨e0, e1, e2, e3, e4, e5⟩ := index_facts t
  refine ⟨t, flush5_2 t, ?_⟩
  rw [mem_block]
  intro a
  match a with
  | ⟨0, _⟩ =>
    show win5_2.index t (0 : Fin 2) * 1000 ≤ (i 0).val ∧ (i 0).val < win5_2.index t (0 : Fin 2) * 1000 + 1000
    omega
  | ⟨1, _⟩ =>
    show win5_2.index t (1 : Fin 2) * 128 ≤ (i 1).val ∧ (i 1).val < win5_2.index t (1 : Fin 2) * 128 + 128
    omega

/-- The output array after the region: the aggregated array as the region found it, plus the bias row on every
    row, clamped at zero. -/
theorem final (c : Dev nD) :
    (dat5 V c).arrAt 2 cfg5.N = clamp (addRow (V c main_v45) (V c main_v46)) :=
  (dat5 V c).arrAt_eq_of_cover 2 (clamp (addRow (V c main_v45) (V c main_v46))) (fun t _ => flushed_eq V c t) covered

end Cert.KernelIdeal.BiasRegion5

end
-- ==== Proof.DenseRegion6.lean ====
/-
  The fourth dense product: H₃ · W₄, computed in blocks of 1000 rows.

  The region's grid has 100 points. Point `t` fetches rows `1000·t … 1000·t + 999` of the third layer's
  output (all 128 columns) and the whole 128 × 6 weight matrix, multiplies them into a zero block, and writes
  the 1000 × 6 block back to the same rows of the output. An entry `(r, e)` of a product depends only on
  row `r` of the left operand, so block `t` of the output is block `t` of the dense product of the WHOLE
  arrays; the 100 blocks tile the output's rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.DenseRegion6

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-! ## The block product's operand indices: rows of the left operand, columns of the right, one contracted axis -/

theorem lhs_row (i : S1000x6.Idx) (q : dot_S1000x128_S128x6_S1000x6_1_0_0_1_n_n.contr.Idx) :
    (dot_S1000x128_S128x6_S1000x6_1_0_0_1_n_n.lhsIdx i q 0).val = (i 0).val := by
  unfold DotDims.lhsIdx
  rw [dif_neg (show ¬(0 : Fin S1000x128.rank) ∈ dot_S1000x128_S128x6_S1000x6_1_0_0_1_n_n.lhsBatch by decide),
    dif_pos (show (0 : Fin S1000x128.rank) ∈ dot_S1000x128_S128x6_S1000x6_1_0_0_1_n_n.lhsNonContracting by decide)]
  rfl
theorem lhs_contracted (i : S1000x6.Idx) (q : dot_S1000x128_S128x6_S1000x6_1_0_0_1_n_n.contr.Idx) :
    (dot_S1000x128_S128x6_S1000x6_1_0_0_1_n_n.lhsIdx i q 1).val = (q ⟨0, by decide⟩).val :=
  dot_S1000x128_S128x6_S1000x6_1_0_0_1_n_n.lhsIdx_val_of_single rfl i q
theorem rhs_contracted (i : S1000x6.Idx) (q : dot_S1000x128_S128x6_S1000x6_1_0_0_1_n_n.contr.Idx) :
    (dot_S1000x128_S128x6_S1000x6_1_0_0_1_n_n.rhsIdx i q 0).val = (q ⟨0, by decide⟩).val :=
  dot_S1000x128_S128x6_S1000x6_1_0_0_1_n_n.rhsIdx_val_of_single rfl i q
theorem rhs_column (i : S1000x6.Idx) (q : dot_S1000x128_S128x6_S1000x6_1_0_0_1_n_n.contr.Idx) :
    (dot_S1000x128_S128x6_S1000x6_1_0_0_1_n_n.rhsIdx i q 1).val = (i 1).val := by
  unfold DotDims.rhsIdx
  rw [dif_neg (show ¬(1 : Fin S128x6.rank) ∈ dot_S1000x128_S128x6_S1000x6_1_0_0_1_n_n.rhsBatch by decide),
    dif_pos (show (1 : Fin S128x6.rank) ∈ dot_S1000x128_S128x6_S1000x6_1_0_0_1_n_n.rhsNonContracting by decide)]
  rfl

/-- The body's one stored value is the dense product of the two loaded blocks (the left block passes through a
    change of shape to the same shape, which is the identity). -/
theorem payload_eq (x0 : Vec Ideal S1000x128 .f32) (x1 : Vec Ideal S128x6 .f32) :
    k6_pay1 x0 x1 = dense x0 x1 := by
  have ha : shapeCast S1000x128 x0 shapeCasts_S1000x128_S1000x128 = x0 := shapeCast_self x0 _
  unfold k6_pay1
  show matmul dot_S1000x128_S128x6_S1000x6_1_0_0_1_n_n none (shapeCast S1000x128 x0 shapeCasts_S1000x128_S1000x128) x1
    (constant (F := Ideal) S1000x6 .f32 0x00000000#32) = dense x0 x1
  rw [ha]
  exact matmul_zero_eq_dense dot_S1000x128_S128x6_S1000x6_1_0_0_1_n_n rfl rfl lhs_row lhs_contracted rhs_contracted
    rhs_column x0 x1

/-! ## From blocks to the array -/

/-- The index maps over the grid: the left operand's and the output's row blocks move with the point, every column
    block and the weight's block stay at zero. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the dense product of the whole arrays. -/
theorem flushed_eq (c : Dev nD) (t : Fin cfg6.N) :
    (dat6 V c).flushed 2 t
      = ((cfg6.win 2).blk t).view.read (Elt Ideal) (dense (V c main_v47) (V c main_arg10)) := by
  show (cfg6.win 2).cut (grid6.coords t) ((dat6 V c).after 2 t) = _
  rw [after6_2]
  unfold out6_2
  rw [View.canon_unit_zero origin2]
  simp only [View.ld_unit_zero (S := S1000x128) origin2, View.ld_unit_zero (S := S128x6) origin2]
  rw [payload_eq]
  obtain ⟨e0, e1, e2, e3, e4, e5⟩ := index_facts t
  funext j
  show dense (iblk6 V c 0 t) (iblk6 V c 1 t) j
    = dense (V c main_v47) (V c main_arg10) (((cfg6.win 2).blk t).view.emb j)
  unfold dense
  refine Finset.sum_congr rfl fun k _ => ?_
  have hx : iblk6 V c 0 t (ix2 (j 0) k)
      = V c main_v47 (ix2 ((((cfg6.win 2).blk t).view.emb j) 0) k) := by
    show V c main_v47 (((cfg6.win 0).blk t).view.emb (ix2 (j 0) k)) = _
    refine congrArg _ (funext fun a => Fin.ext ?_)
    match a with
    | ⟨0, _⟩ =>
      show win6_0.index t (0 : Fin 2) * 1000 + 1 * (j 0).val = win6_2.index t (0 : Fin 2) * 1000 + 1 * (j 0).val
      omega
    | ⟨1, _⟩ =>
      show win6_0.index t (1 : Fin 2) * 128 + 1 * k.val = k.val
      omega
  have hw : iblk6 V c 1 t (ix2 k (j 1))
      = V c main_arg10 (ix2 k ((((cfg6.win 2).blk t).view.emb j) 1)) := by
    show V c main_arg10 (((cfg6.win 1).blk t).view.emb (ix2 k (j 1))) = _
    refine congrArg _ (funext fun a => Fin.ext ?_)
    match a with
    | ⟨0, _⟩ =>
      show win6_1.index t (0 : Fin 2) * 128 + 1 * k.val = k.val
      omega
    | ⟨1, _⟩ =>
      show win6_1.index t (1 : Fin 2) * 6 + 1 * (j 1).val = win6_2.index t (1 : Fin 2) * 6 + 1 * (j 1).val
      omega
  exact congrArg₂ (· * ·) hx hw

/-- An index of the output lies in point `t`'s block iff each coordinate lies in the block's range on its axis. -/
theorem mem_block (t : Fin cfg6.N) (i : S100000x6.Idx) :
    i ∈ ((cfg6.win 2).blk t).view.set ↔ ∀ a : Fin 2, win6_2.index t a * S1000x6.size a ≤ (i a).val
      ∧ (i a).val < win6_2.index t a * S1000x6.size a + S1000x6.size a := by
  show i ∈ ((View.whole main_v48).slice (win6_2.rect t)).set ↔ _
  rw [View.set_slice_whole, Rect.mem_set_unit]
  exact Iff.rfl

/-- Row `r` of the output lies in the block of point `r / 1000`: the blocks cover the array. -/
theorem covered (i : S100000x6.Idx) :
    ∃ t : Fin cfg6.N, (cfg6.win 2).flush t = true ∧ i ∈ ((cfg6.win 2).blk t).view.set := by
  have hi0 : (i 0).val < 100000 := (i 0).isLt
  have hi1 : (i 1).val < 6 := (i 1).isLt
  obtain ⟨t, ht⟩ : ∃ t : Fin cfg6.N, t.val = (i 0).val / 1000 :=
    ⟨⟨(i 0).val / 1000, by show (i 0).val / 1000 < grid6.N; rw [N_6]; omega⟩, rfl⟩
  obtain ⟨e0, e1, e2, e3, e4, e5⟩ := index_facts t
  refine ⟨t, flush6_2 t, ?_⟩
  rw [mem_block]
  intro a
  match a with
  | ⟨0, _⟩ =>
    show win6_2.index t (0 : Fin 2) * 1000 ≤ (i 0).val ∧ (i 0).val < win6_2.index t (0 : Fin 2) * 1000 + 1000
    omega
  | ⟨1, _⟩ =>
    show win6_2.index t (1 : Fin 2) * 6 ≤ (i 1).val ∧ (i 1).val < win6_2.index t (1 : Fin 2) * 6 + 6
    omega

/-- The output array after the region: the dense product of the two input arrays as the region found them. -/
theorem final (c : Dev nD) :
    (dat6 V c).arrAt 2 cfg6.N = dense (V c main_v47) (V c main_arg10) :=
  (dat6 V c).arrAt_eq_of_cover 2 (dense (V c main_v47) (V c main_arg10)) (fun t _ => flushed_eq V c t) covered

end Cert.KernelIdeal.DenseRegion6

end
-- ==== Proof.BiasRegion7.lean ====
/-
  The output layer's epilogue: a bias added to every row, in blocks of 1000 rows (no clamp on the last layer).

  Point `t` of the region's 100 fetches rows `1000·t … 1000·t + 999` of the aggregated array (6 columns) and
  the bias (one row of 6 entries, the same at every point), adds the bias row to each of the 1000 rows, and
  writes the block back to the same rows of the output. The result at `(r, e)` depends only on the aggregated
  entry `(r, e)` and on the bias entry `e`, so block `t` of the output is block `t` of one whole-array
  function; the blocks tile the rows. Stated at whatever contents `V` the region is entered with.
-/
import proofs.«106282_j44418551775395_1_alg».proof.Proof.Gen.KernelIdeal.Frame
import proofs.«106282_j44418551775395_1_alg».proof.Proof.GraphLayer

set_option maxRecDepth 16384

noncomputable section

namespace Cert.KernelIdeal.BiasRegion7

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's one stored value: the bias row added to every row of the block. -/
theorem payload_eq (x0 : Vec Ideal S1000x6 .f32) (x1 : Vec Ideal S1x6 .f32) :
    k7_pay1 x0 x1 = addRow x0 x1 := by
  funext j
  obtain ⟨p, e, rfl⟩ : ∃ (p : Fin 1000) (e : Fin 6), j = ix2 p e := ⟨j 0, j 1, eq_ix2 j⟩
  have ha : shapeCast S1000x6 x0 shapeCasts_S1000x6_S1000x6 = x0 := shapeCast_self x0 _
  have hb : broadcastTo S1000x6 (shapeCast S1x6 x1 shapeCasts_S1x6_S1x6) broadcasts_S1x6_S1000x6 (ix2 p e)
      = x1 (ix2 0 e) := by
    rw [shapeCast_self]
    exact broadcastTo_apply x1 _ (ix2 p e) (ix2 0 e) (fun a => by match a with | ⟨0, _⟩ => rfl | ⟨1, _⟩ => rfl)
  show shapeCast S1000x6 x0 shapeCasts_S1000x6_S1000x6 (ix2 p e)
      + broadcastTo S1000x6 (shapeCast S1x6 x1 shapeCasts_S1x6_S1x6) broadcasts_S1x6_S1000x6 (ix2 p e)
      = x0 (ix2 p e) + x1 (ix2 0 e)
  rw [ha, hb]

/-! ## From blocks to the array -/

/-- The index maps over the grid: the aggregated array's and the output's row blocks move with the point, every
    column block and the bias row's block stay at zero. -/
theorem index_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the whole arrays' biased sum. -/
theorem flushed_eq (c : Dev nD) (t : Fin cfg7.N) :
    (dat7 V c).flushed 2 t
      = ((cfg7.win 2).blk t).view.read (Elt Ideal) (addRow (V c main_v61) (V c main_v62)) := by
  show (cfg7.win 2).cut (grid7.coords t) ((dat7 V c).after 2 t) = _
  rw [after7_2]
  unfold out7_2
  rw [View.canon_unit_zero origin2]
  simp only [View.ld_unit_zero (S := S1000x6) origin2, View.ld_unit_zero (S := S1x6) origin2]
  rw [payload_eq]
  obtain ⟨e0, e1, e2, e3, e4, e5⟩ := index_facts t
  funext j
  show addRow (iblk7 V c 0 t) (iblk7 V c 1 t) j
    = addRow (V c main_v61) (V c main_v62) (((cfg7.win 2).blk t).view.emb j)
  unfold addRow
  have hx : iblk7 V c 0 t j = V c main_v61 (((cfg7.win 2).blk t).view.emb j) := by
    show V c main_v61 (((cfg7.win 0).blk t).view.emb j) = _
    refine congrArg _ (funext fun a => Fin.ext ?_)
    match a with
    | ⟨0, _⟩ =>
      show win7_0.index t (0 : Fin 2) * 1000 + 1 * (j 0).val = win7_2.index t (0 : Fin 2) * 1000 + 1 * (j 0).val
      omega
    | ⟨1, _⟩ =>
      show win7_0.index t (1 : Fin 2) * 6 + 1 * (j 1).val = win7_2.index t (1 : Fin 2) * 6 + 1 * (j 1).val
      omega
  have hb : iblk7 V c 1 t (ix2 0 (j 1))
      = V c main_v62 (ix2 0 ((((cfg7.win 2).blk t).view.emb j) 1)) := by
    show V c main_v62 (((cfg7.win 1).blk t).view.emb (ix2 0 (j 1))) = _
    refine congrArg _ (funext fun a => Fin.ext ?_)
    match a with
    | ⟨0, _⟩ =>
      show win7_1.index t (0 : Fin 2) * 1 + 1 * 0 = 0
      omega
    | ⟨1, _⟩ =>
      show win7_1.index t (1 : Fin 2) * 6 + 1 * (j 1).val = win7_2.index t (1 : Fin 2) * 6 + 1 * (j 1).val
      omega
  exact congrArg₂ (· + ·) hx hb

/-- An index of the output lies in point `t`'s block iff each coordinate lies in the block's range on its axis. -/
theorem mem_block (t : Fin cfg7.N) (i : S100000x6.Idx) :
    i ∈ ((cfg7.win 2).blk t).view.set ↔ ∀ a : Fin 2, win7_2.index t a * S1000x6.size a ≤ (i a).val
      ∧ (i a).val < win7_2.index t a * S1000x6.size a + S1000x6.size a := by
  show i ∈ ((View.whole main_v63).slice (win7_2.rect t)).set ↔ _
  rw [View.set_slice_whole, Rect.mem_set_unit]
  exact Iff.rfl

/-- Row `r` of the output lies in the block of point `r / 1000`: the blocks cover the array. -/
theorem covered (i : S100000x6.Idx) :
    ∃ t : Fin cfg7.N, (cfg7.win 2).flush t = true ∧ i ∈ ((cfg7.win 2).blk t).view.set := by
  have hi0 : (i 0).val < 100000 := (i 0).isLt
  have hi1 : (i 1).val < 6 := (i 1).isLt
  obtain ⟨t, ht⟩ : ∃ t : Fin cfg7.N, t.val = (i 0).val / 1000 :=
    ⟨⟨(i 0).val / 1000, by show (i 0).val / 1000 < grid7.N; rw [N_7]; omega⟩, rfl⟩
  obtain ⟨e0, e1, e2, e3, e4, e5⟩ := index_facts t
  refine ⟨t, flush7_2 t, ?_⟩
  rw [mem_block]
  intro a
  match a with
  | ⟨0, _⟩ =>
    show win7_2.index t (0 : Fin 2) * 1000 ≤ (i 0).val ∧ (i 0).val < win7_2.index t (0 : Fin 2) * 1000 + 1000
    omega
  | ⟨1, _⟩ =>
    show win7_2.index t (1 : Fin 2) * 6 ≤ (i 1).val ∧ (i 1).val < win7_2.index t (1 : Fin 2) * 6 + 6
    omega

/-- The output array after the region: the aggregated array as the region found it, plus the bias row on every row. -/
theorem final (c : Dev nD) :
    (dat7 V c).arrAt 2 cfg7.N = addRow (V c main_v61) (V c main_v62) :=
  (dat7 V c).arrAt_eq_of_cover 2 (addRow (V c main_v61) (V c main_v62)) (fun t _ => flushed_eq V c t) covered

end Cert.KernelIdeal.BiasRegion7

end
-- ==== Proof.LayerValues.lean ====
/-
  The kernel program's result as a function of the launch memory.

  The buffer contents at the boundaries of @main's twelve segments are a fold from the launch memory. This
  module walks it. First, the arguments that later steps still read are unchanged at every boundary: no
  stretch of host operations assigns them and a region leaves its input arrays as it found them. Then, layer
  by layer, the buffer that holds a layer's output is the layer's formula of the launch memory: the region
  modules give each region's output array as a whole-array function of the region's input arrays, the stretch
  module gives the edge step and the bias row, and the previous layer's output feeds the next product.
  Four layers down, the result buffer at the last boundary is the network's formula of the twelve arguments.
-/
import proofs.«106282_j44418551775395_1_alg».proof.Proof.Gen.KernelIdeal.Frame
import proofs.«106282_j44418551775395_1_alg».proof.Proof.GraphLayer
import proofs.«106282_j44418551775395_1_alg».proof.Proof.EdgeStep
import proofs.«106282_j44418551775395_1_alg».proof.Proof.HostStretches
import proofs.«106282_j44418551775395_1_alg».proof.Proof.DenseRegion0
import proofs.«106282_j44418551775395_1_alg».proof.Proof.BiasRegion1
import proofs.«106282_j44418551775395_1_alg».proof.Proof.DenseRegion2
import proofs.«106282_j44418551775395_1_alg».proof.Proof.BiasRegion3
import proofs.«106282_j44418551775395_1_alg».proof.Proof.DenseRegion4
import proofs.«106282_j44418551775395_1_alg».proof.Proof.BiasRegion5
import proofs.«106282_j44418551775395_1_alg».proof.Proof.DenseRegion6
import proofs.«106282_j44418551775395_1_alg».proof.Proof.BiasRegion7

set_option maxRecDepth 16384

noncomputable section

namespace Cert.KernelIdeal.LayerValues

open Cert.KernelIdeal Cert.KernelIdeal.Gen Cert.GraphLayer Cert.EdgeStep Cert.KernelIdeal.HostStretches
open Idealize.ShloMosaic Idealize.ShloMosaic.TcCoe Idealize.SL.Sem

variable (m : (ℓ : Loc nD τ sig) → Buf (Elt Ideal) ℓ) (ρ : Dev nD → PrngReg) (c : Dev nD)

/-! ## The later-read arguments are as launched at every boundary -/

theorem at1 (b : Ref sig .tc) (hb : b ∈ laterArgs) :
    W1 m ρ c (Proc.devRef .tc b) = m ((c : Thread nD τ).loc b) := by
  simp only [laterArgs, List.mem_cons, List.mem_singleton, List.not_mem_nil, or_false] at hb
  rcases hb with rfl | rfl | rfl | rfl | rfl | rfl | rfl | rfl | rfl | rfl <;> exact W1_of_ne m ρ c _ (by decide)

theorem at2 (b : Ref sig .tc) (hb : b ∈ laterArgs) :
    W2 m ρ c (Proc.devRef .tc b) = m ((c : Thread nD τ).loc b) :=
  (keep1 (W1 m ρ c) b hb).trans (at1 m ρ c b hb)

theorem at3 (b : Ref sig .tc) (hb : b ∈ laterArgs) :
    W3 m ρ c (Proc.devRef .tc b) = m ((c : Thread nD τ).loc b) := by
  refine Eq.trans ?_ (at2 m ρ c b hb)
  simp only [laterArgs, List.mem_cons, List.mem_singleton, List.not_mem_nil, or_false] at hb
  rcases hb with rfl | rfl | rfl | rfl | rfl | rfl | rfl | rfl | rfl | rfl <;> exact W3_of_ne m ρ c _ (by decide)

/-- The second product reads the second weight matrix through an input window: the region leaves it as found. -/
theorem at4 (b : Ref sig .tc) (hb : b ∈ laterArgs) :
    W4 m ρ c (Proc.devRef .tc b) = m ((c : Thread nD τ).loc b) := by
  refine Eq.trans ?_ (at3 m ρ c b hb)
  simp only [laterArgs, List.mem_cons, List.mem_singleton, List.not_mem_nil, or_false] at hb
  rcases hb with rfl | rfl | rfl | rfl | rfl | rfl | rfl | rfl | rfl | rfl <;>
    first
    | exact W4_of_ne m ρ c _ (by decide)
    | exact (W4_arr m ρ c 1).trans (((dat2 (V3 m ρ) c).arrAt_in 1 rfl _).trans (A_eq2 (V3 m ρ) c 1))

theorem at5 (b : Ref sig .tc) (hb : b ∈ laterArgs) :
    W5 m ρ c (Proc.devRef .tc b) = m ((c : Thread nD τ).loc b) :=
  (keep3 (W4 m ρ c) b hb).trans (at4 m ρ c b hb)

theorem at6 (b : Ref sig .tc) (hb : b ∈ laterArgs) :
    W6 m ρ c (Proc.devRef .tc b) = m ((c : Thread nD τ).loc b) := by
  refine Eq.trans ?_ (at5 m ρ c b hb)
  simp only [laterArgs, List.mem_cons, List.mem_singleton, List.not_mem_nil, or_false] at hb
  rcases hb with rfl | rfl | rfl | rfl | rfl | rfl | rfl | rfl | rfl | rfl <;> exact W6_of_ne m ρ c _ (by decide)

/-- The third product reads the third weight matrix through an input window: the region leaves it as found. -/
theorem at7 (b : Ref sig .tc) (hb : b ∈ laterArgs) :
    W7 m ρ c (Proc.devRef .tc b) = m ((c : Thread nD τ).loc b) := by
  refine Eq.trans ?_ (at6 m ρ c b hb)
  simp only [laterArgs, List.mem_cons, List.mem_singleton, List.not_mem_nil, or_false] at hb
  rcases hb with rfl | rfl | rfl | rfl | rfl | rfl | rfl | rfl | rfl | rfl <;>
    first
    | exact W7_of_ne m ρ c _ (by decide)
    | exact (W7_arr m ρ c 1).trans (((dat4 (V6 m ρ) c).arrAt_in 1 rfl _).trans (A_eq4 (V6 m ρ) c 1))

theorem at8 (b : Ref sig .tc) (hb : b ∈ laterArgs) :
    W8 m ρ c (Proc.devRef .tc b) = m ((c : Thread nD τ).loc b) :=
  (keep5 (W7 m ρ c) b hb).trans (at7 m ρ c b hb)

theorem at9 (b : Ref sig .tc) (hb : b ∈ laterArgs) :
    W9 m ρ c (Proc.devRef .tc b) = m ((c : Thread nD τ).loc b) := by
  refine Eq.trans ?_ (at8 m ρ c b hb)
  simp only [laterArgs, List.mem_cons, List.mem_singleton, List.not_mem_nil, or_false] at hb
  rcases hb with rfl | rfl | rfl | rfl | rfl | rfl | rfl | rfl | rfl | rfl <;> exact W9_of_ne m ρ c _ (by decide)

/-- The fourth product reads the fourth weight matrix through an input window: the region leaves it as found. -/
theorem at10 (b : Ref sig .tc) (hb : b ∈ laterArgs) :
    W10 m ρ c (Proc.devRef .tc b) = m ((c : Thread nD τ).loc b) := by
  refine Eq.trans ?_ (at9 m ρ c b hb)
  simp only [laterArgs, List.mem_cons, List.mem_singleton, List.not_mem_nil, or_false] at hb
  rcases hb with rfl | rfl | rfl | rfl | rfl | rfl | rfl | rfl | rfl | rfl <;>
    first
    | exact W10_of_ne m ρ c _ (by decide)
    | exact (W10_arr m ρ c 1).trans (((dat6 (V9 m ρ) c).arrAt_in 1 rfl _).trans (A_eq6 (V9 m ρ) c 1))

/-! ## The layers -/

/-- The first hidden layer: clamp (edges (X · W₁) + b₁). -/
def hidden1 : FVec Ideal S100000x128 .f32 :=
  clamp (addRow
    (kernel128 (dense (m ((c : Thread nD τ).loc main_arg0)) (m ((c : Thread nD τ).loc main_arg4)))
      (m ((c : Thread nD τ).loc main_arg1)) (m ((c : Thread nD τ).loc main_arg2)) (m ((c : Thread nD τ).loc main_arg3)))
    (shapeCast S1x128 (m ((c : Thread nD τ).loc main_arg5)) shapeCasts_S128_S1x128))

/-- The second hidden layer: clamp (edges (H₁ · W₂) + b₂). -/
def hidden2 : FVec Ideal S100000x128 .f32 :=
  clamp (addRow
    (kernel128 (dense (hidden1 m c) (m ((c : Thread nD τ).loc main_arg6)))
      (m ((c : Thread nD τ).loc main_arg1)) (m ((c : Thread nD τ).loc main_arg2)) (m ((c : Thread nD τ).loc main_arg3)))
    (shapeCast S1x128 (m ((c : Thread nD τ).loc main_arg7)) shapeCasts_S128_S1x128))

/-- The third hidden layer: clamp (edges (H₂ · W₃) + b₃). -/
def hidden3 : FVec Ideal S100000x128 .f32 :=
  clamp (addRow
    (kernel128 (dense (hidden2 m c) (m ((c : Thread nD τ).loc main_arg8)))
      (m ((c : Thread nD τ).loc main_arg1)) (m ((c : Thread nD τ).loc main_arg2)) (m ((c : Thread nD τ).loc main_arg3)))
    (shapeCast S1x128 (m ((c : Thread nD τ).loc main_arg9)) shapeCasts_S128_S1x128))

/-- The output layer: edges (H₃ · W₄) + b₄, no clamp. -/
def output : FVec Ideal S100000x6 .f32 :=
  addRow
    (kernel6 (dense (hidden3 m c) (m ((c : Thread nD τ).loc main_arg10)))
      (m ((c : Thread nD τ).loc main_arg1)) (m ((c : Thread nD τ).loc main_arg2)) (m ((c : Thread nD τ).loc main_arg3)))
    (shapeCast S1x6 (m ((c : Thread nD τ).loc main_arg11)) shapeCasts_S6_S1x6)

theorem layer1 : W3 m ρ c (Proc.devRef .tc main_v15) = hidden1 m c := by
  have e0 : W1 m ρ c (Proc.devRef .tc main_v0)
      = dense (m ((c : Thread nD τ).loc main_arg0)) (m ((c : Thread nD τ).loc main_arg4)) :=
    (W1_arr m ρ c 2).trans (DenseRegion0.final (V0 m ρ) c)
  have e13 : W2 m ρ c (Proc.devRef .tc main_v13)
      = kernel128 (dense (m ((c : Thread nD τ).loc main_arg0)) (m ((c : Thread nD τ).loc main_arg4)))
          (m ((c : Thread nD τ).loc main_arg1)) (m ((c : Thread nD τ).loc main_arg2)) (m ((c : Thread nD τ).loc main_arg3)) := by
    refine (edges1 (W1 m ρ c)).trans ?_
    rw [e0, at1 m ρ c main_arg1 (by decide), at1 m ρ c main_arg2 (by decide), at1 m ρ c main_arg3 (by decide)]
  have e14 : W2 m ρ c (Proc.devRef .tc main_v14)
      = shapeCast S1x128 (m ((c : Thread nD τ).loc main_arg5)) shapeCasts_S128_S1x128 := by
    refine (bias1 (W1 m ρ c)).trans ?_
    rw [at1 m ρ c main_arg5 (by decide)]
  refine (W3_arr m ρ c 2).trans ((BiasRegion1.final (V2 m ρ) c).trans ?_)
  show clamp (addRow (W2 m ρ c (Proc.devRef .tc main_v13)) (W2 m ρ c (Proc.devRef .tc main_v14))) = _
  rw [e13, e14]
  rfl

theorem layer2 : W6 m ρ c (Proc.devRef .tc main_v31) = hidden2 m c := by
  have e16 : W4 m ρ c (Proc.devRef .tc main_v16) = dense (hidden1 m c) (m ((c : Thread nD τ).loc main_arg6)) := by
    refine (W4_arr m ρ c 2).trans ((DenseRegion2.final (V3 m ρ) c).trans ?_)
    show dense (W3 m ρ c (Proc.devRef .tc main_v15)) (W3 m ρ c (Proc.devRef .tc main_arg6)) = _
    rw [layer1 m ρ c, at3 m ρ c main_arg6 (by decide)]
  have e29 : W5 m ρ c (Proc.devRef .tc main_v29)
      = kernel128 (dense (hidden1 m c) (m ((c : Thread nD τ).loc main_arg6)))
          (m ((c : Thread nD τ).loc main_arg1)) (m ((c : Thread nD τ).loc main_arg2)) (m ((c : Thread nD τ).loc main_arg3)) := by
    refine (edges3 (W4 m ρ c)).trans ?_
    rw [e16, at4 m ρ c main_arg1 (by decide), at4 m ρ c main_arg2 (by decide), at4 m ρ c main_arg3 (by decide)]
  have e30 : W5 m ρ c (Proc.devRef .tc main_v30)
      = shapeCast S1x128 (m ((c : Thread nD τ).loc main_arg7)) shapeCasts_S128_S1x128 := by
    refine (bias3 (W4 m ρ c)).trans ?_
    rw [at4 m ρ c main_arg7 (by decide)]
  refine (W6_arr m ρ c 2).trans ((BiasRegion3.final (V5 m ρ) c).trans ?_)
  show clamp (addRow (W5 m ρ c (Proc.devRef .tc main_v29)) (W5 m ρ c (Proc.devRef .tc main_v30))) = _
  rw [e29, e30]
  rfl

theorem layer3 : W9 m ρ c (Proc.devRef .tc main_v47) = hidden3 m c := by
  have e32 : W7 m ρ c (Proc.devRef .tc main_v32) = dense (hidden2 m c) (m ((c : Thread nD τ).loc main_arg8)) := by
    refine (W7_arr m ρ c 2).trans ((DenseRegion4.final (V6 m ρ) c).trans ?_)
    show dense (W6 m ρ c (Proc.devRef .tc main_v31)) (W6 m ρ c (Proc.devRef .tc main_arg8)) = _
    rw [layer2 m ρ c, at6 m ρ c main_arg8 (by decide)]
  have e45 : W8 m ρ c (Proc.devRef .tc main_v45)
      = kernel128 (dense (hidden2 m c) (m ((c : Thread nD τ).loc main_arg8)))
          (m ((c : Thread nD τ).loc main_arg1)) (m ((c : Thread nD τ).loc main_arg2)) (m ((c : Thread nD τ).loc main_arg3)) := by
    refine (edges5 (W7 m ρ c)).trans ?_
    rw [e32, at7 m ρ c main_arg1 (by decide), at7 m ρ c main_arg2 (by decide), at7 m ρ c main_arg3 (by decide)]
  have e46 : W8 m ρ c (Proc.devRef .tc main_v46)
      = shapeCast S1x128 (m ((c : Thread nD τ).loc main_arg9)) shapeCasts_S128_S1x128 := by
    refine (bias5 (W7 m ρ c)).trans ?_
    rw [at7 m ρ c main_arg9 (by decide)]
  refine (W9_arr m ρ c 2).trans ((BiasRegion5.final (V8 m ρ) c).trans ?_)
  show clamp (addRow (W8 m ρ c (Proc.devRef .tc main_v45)) (W8 m ρ c (Proc.devRef .tc main_v46))) = _
  rw [e45, e46]
  rfl

/-- The result buffer at the last boundary is the network's formula of the launch memory. -/
theorem layer4 : W12 m ρ c (Proc.devRef .tc main_v63) = output m c := by
  have e48 : W10 m ρ c (Proc.devRef .tc main_v48) = dense (hidden3 m c) (m ((c : Thread nD τ).loc main_arg10)) := by
    refine (W10_arr m ρ c 2).trans ((DenseRegion6.final (V9 m ρ) c).trans ?_)
    show dense (W9 m ρ c (Proc.devRef .tc main_v47)) (W9 m ρ c (Proc.devRef .tc main_arg10)) = _
    rw [layer3 m ρ c, at9 m ρ c main_arg10 (by decide)]
  have e61 : W11 m ρ c (Proc.devRef .tc main_v61)
      = kernel6 (dense (hidden3 m c) (m ((c : Thread nD τ).loc main_arg10)))
          (m ((c : Thread nD τ).loc main_arg1)) (m ((c : Thread nD τ).loc main_arg2)) (m ((c : Thread nD τ).loc main_arg3)) := by
    refine (edges7 (W10 m ρ c)).trans ?_
    rw [e48, at10 m ρ c main_arg1 (by decide), at10 m ρ c main_arg2 (by decide), at10 m ρ c main_arg3 (by decide)]
  have e62 : W11 m ρ c (Proc.devRef .tc main_v62)
      = shapeCast S1x6 (m ((c : Thread nD τ).loc main_arg11)) shapeCasts_S6_S1x6 := by
    refine (bias7 (W10 m ρ c)).trans ?_
    rw [at10 m ρ c main_arg11 (by decide)]
  refine (W12_arr m ρ c 2).trans ((BiasRegion7.final (V11 m ρ) c).trans ?_)
  show addRow (W11 m ρ c (Proc.devRef .tc main_v61)) (W11 m ρ c (Proc.devRef .tc main_v62)) = _
  rw [e61, e62]
  rfl

end Cert.KernelIdeal.LayerValues

end
-- ==== Proof.ReferenceValue.lean ====
/-
  The reference's result as a function of the launch memory.

  The reference computes each layer on the host: a matrix product, the edge step, the bias broadcast to every
  row and added, and (for the hidden layers) a maximum with zeros. Its run ends with the result at one composed
  term of the twelve arguments. Entry by entry that term is the four-layer formula: each host product is the
  dense product (a finite sum over the contracted coordinate), the bias broadcast in two steps and added is the
  bias row added to every row, the maximum with a broadcast zero is the clamp — and the edge step is kept as
  the one function `EdgeStep` names.
-/
import proofs.«106282_j44418551775395_1_alg».proof.Proof.Gen.ReferenceIdeal.Run
import proofs.«106282_j44418551775395_1_alg».proof.Proof.Gen.ReferenceIdeal.Read
import proofs.«106282_j44418551775395_1_alg».proof.Proof.GraphLayer
import proofs.«106282_j44418551775395_1_alg».proof.Proof.EdgeStep

set_option maxRecDepth 16384

noncomputable section

namespace Cert.ReferenceIdeal.LayerValues

open Cert.ReferenceIdeal Cert.ReferenceIdeal.Facts₀ Cert.ReferenceIdeal.Read Cert.GraphLayer Cert.EdgeStep
open Idealize.ShloMosaic Idealize.ShloMosaic.TcCoe Idealize.ShloMosaic.ValueIdx Idealize.SL.Sem

/-! ## The host operations around the edge step, as the layer's pieces -/

/-- The first host product is the dense product. -/
theorem product1 (X : FVec Ideal S100000x512 .f32) (W : FVec Ideal S512x128 .f32) :
    Host.dotGeneral dot_S100000x512_S512x128_S100000x128_1_0_0_1_n_n none X W = dense X W :=
  dotGeneral_eq_dense dot_S100000x512_S512x128_S100000x128_1_0_0_1_n_n rfl rfl lhs_main_v0_0 lhs_main_v0_1 rhs_main_v0_0
    rhs_main_v0_1 X W

/-- The second and third host products are dense products. -/
theorem product2 (X : FVec Ideal S100000x128 .f32) (W : FVec Ideal S128x128 .f32) :
    Host.dotGeneral dot_S100000x128_S128x128_S100000x128_1_0_0_1_n_n none X W = dense X W :=
  dotGeneral_eq_dense dot_S100000x128_S128x128_S100000x128_1_0_0_1_n_n rfl rfl lhs_main_v18_0 lhs_main_v18_1 rhs_main_v18_0
    rhs_main_v18_1 X W

/-- The fourth host product is the dense product. -/
theorem product4 (X : FVec Ideal S100000x128 .f32) (W : FVec Ideal S128x6 .f32) :
    Host.dotGeneral dot_S100000x128_S128x6_S100000x6_1_0_0_1_n_n none X W = dense X W :=
  dotGeneral_eq_dense dot_S100000x128_S128x6_S100000x6_1_0_0_1_n_n rfl rfl lhs_main_v54_0 lhs_main_v54_1 rhs_main_v54_0
    rhs_main_v54_1 X W

/-- A bias row broadcast to every row and added is the row added to every row (rows of 128 entries). -/
theorem add_row128 (h : S1x128.BroadcastsInDim S100000x128 ![0, 1]) (A : FVec Ideal S100000x128 .f32)
    (B : FVec Ideal S1x128 .f32) :
    addf A (broadcastInDim S100000x128 ![0, 1] h B) = addRow A B := by
  funext j
  obtain ⟨r, e, rfl⟩ : ∃ (r : Fin 100000) (e : Fin 128), j = ix2 r e := ⟨j 0, j 1, eq_ix2 j⟩
  exact congrArg (A (ix2 r e) + ·) (broadcastInDim_apply ![0, 1] h B (ix2 r e) (ix2 0 e)
    (fun a => by match a with | ⟨0, _⟩ => rfl | ⟨1, _⟩ => rfl))

/-- The same for rows of 6 entries. -/
theorem add_row6 (h : S1x6.BroadcastsInDim S100000x6 ![0, 1]) (A : FVec Ideal S100000x6 .f32)
    (B : FVec Ideal S1x6 .f32) :
    addf A (broadcastInDim S100000x6 ![0, 1] h B) = addRow A B := by
  funext j
  obtain ⟨r, e, rfl⟩ : ∃ (r : Fin 100000) (e : Fin 6), j = ix2 r e := ⟨j 0, j 1, eq_ix2 j⟩
  exact congrArg (A (ix2 r e) + ·) (broadcastInDim_apply ![0, 1] h B (ix2 r e) (ix2 0 e)
    (fun a => by match a with | ⟨0, _⟩ => rfl | ⟨1, _⟩ => rfl))

/-- The maximum with a broadcast zero is the clamp at zero. -/
theorem max_zero (h : S_.BroadcastsInDim S100000x128 ![]) (A : FVec Ideal S100000x128 .f32) :
    maximumf A (broadcastInDim S100000x128 ![] h (constant (F := Ideal) S_ .f32 0x00000000#32)) = clamp A := by
  funext j
  exact congrArg (max (A j)) (broadcastInDim_apply ![] h (constant (F := Ideal) S_ .f32 0x00000000#32) j ix0
    (fun a => a.elim0))

/-! ## The layers -/

variable (m : (ℓ : Loc nD τ sig) → Buf (Elt Ideal) ℓ) (c : Dev nD)

/-- The first hidden layer: clamp (edges (X · W₁) + b₁). -/
def hidden1 : FVec Ideal S100000x128 .f32 :=
  clamp (addRow
    (reference128 (dense (m ((c.tc : Thread nD τ).loc main_arg0)) (m ((c.tc : Thread nD τ).loc main_arg4)))
      (m ((c.tc : Thread nD τ).loc main_arg1)) (m ((c.tc : Thread nD τ).loc main_arg2)) (m ((c.tc : Thread nD τ).loc main_arg3)))
    (broadcastInDim S1x128 ![1] bcast_S128_S1x128_1 (m ((c.tc : Thread nD τ).loc main_arg5))))

/-- The second hidden layer: clamp (edges (H₁ · W₂) + b₂). -/
def hidden2 : FVec Ideal S100000x128 .f32 :=
  clamp (addRow
    (reference128 (dense (hidden1 m c) (m ((c.tc : Thread nD τ).loc main_arg6)))
      (m ((c.tc : Thread nD τ).loc main_arg1)) (m ((c.tc : Thread nD τ).loc main_arg2)) (m ((c.tc : Thread nD τ).loc main_arg3)))
    (broadcastInDim S1x128 ![1] bcast_S128_S1x128_1 (m ((c.tc : Thread nD τ).loc main_arg7))))

/-- The third hidden layer: clamp (edges (H₂ · W₃) + b₃). -/
def hidden3 : FVec Ideal S100000x128 .f32 :=
  clamp (addRow
    (reference128 (dense (hidden2 m c) (m ((c.tc : Thread nD τ).loc main_arg8)))
      (m ((c.tc : Thread nD τ).loc main_arg1)) (m ((c.tc : Thread nD τ).loc main_arg2)) (m ((c.tc : Thread nD τ).loc main_arg3)))
    (broadcastInDim S1x128 ![1] bcast_S128_S1x128_1 (m ((c.tc : Thread nD τ).loc main_arg9))))

/-- The output layer: edges (H₃ · W₄) + b₄, no clamp. -/
def output : FVec Ideal S100000x6 .f32 :=
  addRow
    (reference6 (dense (hidden3 m c) (m ((c.tc : Thread nD τ).loc main_arg10)))
      (m ((c.tc : Thread nD τ).loc main_arg1)) (m ((c.tc : Thread nD τ).loc main_arg2)) (m ((c.tc : Thread nD τ).loc main_arg3)))
    (broadcastInDim S1x6 ![1] bcast_S6_S1x6_1 (m ((c.tc : Thread nD τ).loc main_arg11)))

/-- The run's result term is the four-layer formula. -/
theorem result_eq : Cert.ReferenceIdeal.Value.res_main_v70 m c = output m c := by
  unfold Cert.ReferenceIdeal.Value.res_main_v70 output hidden3 hidden2 hidden1 reference128 reference6
  simp only [product1, product2, product4]
  rw [add_row6, add_row128, add_row128, add_row128, max_zero, max_zero, max_zero]

end Cert.ReferenceIdeal.LayerValues

end
-- ==== Proof.Agreement.lean ====
/-
  The two programs' results are one function of the arguments.

  Both results are the same four-layer formula: dense product, edge step, bias added to every row, clamp
  (none on the last layer). They differ only in spelling: the edge step is named with each program's own
  dimension records (one function, `EdgeStep`), and the bias is laid out as a row by a change of shape in
  the kernel program and by a broadcast in the reference — either way entry `(0, e)` of the row is entry `e`
  of the bias, so both add `b e` to entry `(r, e)`. With the twelve argument arrays equal, the two
  formulas are equal.
-/
import proofs.«106282_j44418551775395_1_alg».proof.Proof.LayerValues
import proofs.«106282_j44418551775395_1_alg».proof.Proof.ReferenceValue
import Idealize.ShloMosaic.Lib.ValueLayout

set_option maxRecDepth 16384

noncomputable section

namespace Cert.Agreement

open Cert.GraphLayer Cert.EdgeStep
open Idealize.ShloMosaic Idealize.ShloMosaic.TcCoe Idealize.ShloMosaic.ValueIdx Idealize.SL.Sem

/-- A bias vector added to every row: entry `(r, e)` is `A (r, e) + b e`. -/
def addBias {M N : ℕ} (A : FVec Ideal ⟨2, ![M, N]⟩ .f32) (b : FVec Ideal ⟨1, ![N]⟩ .f32) : FVec Ideal ⟨2, ![M, N]⟩ .f32 :=
  fun i => A i + b (ix1 (i 1))

/-- A bias of 128 entries laid out as a row by a broadcast, added to every row. -/
theorem addRow_broadcast128 (h : (⟨1, ![128]⟩ : Shape).BroadcastsInDim ⟨2, ![1, 128]⟩ ![1])
    (A : FVec Ideal ⟨2, ![100000, 128]⟩ .f32) (b : FVec Ideal ⟨1, ![128]⟩ .f32) :
    addRow A (broadcastInDim ⟨2, ![1, 128]⟩ ![1] h b) = addBias A b := by
  funext j
  obtain ⟨r, e, rfl⟩ : ∃ (r : Fin 100000) (e : Fin 128), j = ix2 r e := ⟨j 0, j 1, eq_ix2 j⟩
  exact congrArg (A (ix2 r e) + ·) (broadcastInDim_apply ![1] h b (ix2 0 e) (ix1 e)
    (fun a => by match a with | ⟨0, _⟩ => rfl))

/-- A bias of 128 entries laid out as a row by a change of shape, added to every row. -/
theorem addRow_cast128 (h : (⟨1, ![128]⟩ : Shape).ShapeCasts ⟨2, ![1, 128]⟩)
    (A : FVec Ideal ⟨2, ![100000, 128]⟩ .f32) (b : FVec Ideal ⟨1, ![128]⟩ .f32) :
    addRow A (shapeCast ⟨2, ![1, 128]⟩ b h) = addBias A b := by
  funext j
  obtain ⟨r, e, rfl⟩ : ∃ (r : Fin 100000) (e : Fin 128), j = ix2 r e := ⟨j 0, j 1, eq_ix2 j⟩
  exact congrArg (A (ix2 r e) + ·) (shapeCast_a_1a_apply b h 0 e)

/-- A bias of 6 entries laid out as a row by a broadcast, added to every row. -/
theorem addRow_broadcast6 (h : (⟨1, ![6]⟩ : Shape).BroadcastsInDim ⟨2, ![1, 6]⟩ ![1])
    (A : FVec Ideal ⟨2, ![100000, 6]⟩ .f32) (b : FVec Ideal ⟨1, ![6]⟩ .f32) :
    addRow A (broadcastInDim ⟨2, ![1, 6]⟩ ![1] h b) = addBias A b := by
  funext j
  obtain ⟨r, e, rfl⟩ : ∃ (r : Fin 100000) (e : Fin 6), j = ix2 r e := ⟨j 0, j 1, eq_ix2 j⟩
  exact congrArg (A (ix2 r e) + ·) (broadcastInDim_apply ![1] h b (ix2 0 e) (ix1 e)
    (fun a => by match a with | ⟨0, _⟩ => rfl))

/-- A bias of 6 entries laid out as a row by a change of shape, added to every row. -/
theorem addRow_cast6 (h : (⟨1, ![6]⟩ : Shape).ShapeCasts ⟨2, ![1, 6]⟩)
    (A : FVec Ideal ⟨2, ![100000, 6]⟩ .f32) (b : FVec Ideal ⟨1, ![6]⟩ .f32) :
    addRow A (shapeCast ⟨2, ![1, 6]⟩ b h) = addBias A b := by
  funext j
  obtain ⟨r, e, rfl⟩ : ∃ (r : Fin 100000) (e : Fin 6), j = ix2 r e := ⟨j 0, j 1, eq_ix2 j⟩
  exact congrArg (A (ix2 r e) + ·) (shapeCast_a_1a_apply b h 0 e)

/-- With the twelve argument arrays equal, the reference's formula is the kernel program's. -/
theorem outputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.LayerValues.output m' c = Cert.KernelIdeal.LayerValues.output m c := by
  unfold Cert.ReferenceIdeal.LayerValues.output Cert.ReferenceIdeal.LayerValues.hidden3 Cert.ReferenceIdeal.LayerValues.hidden2
    Cert.ReferenceIdeal.LayerValues.hidden1 Cert.KernelIdeal.LayerValues.output Cert.KernelIdeal.LayerValues.hidden3
    Cert.KernelIdeal.LayerValues.hidden2 Cert.KernelIdeal.LayerValues.hidden1
  rw [h0, h1, h2, h3, h4, h5, h6, h7, h8, h9, h10, h11, reference128_eq, reference6_eq]
  rw [addRow_broadcast6, addRow_broadcast128, addRow_broadcast128, addRow_broadcast128, addRow_cast6, addRow_cast128,
    addRow_cast128, addRow_cast128]

end Cert.Agreement

end
-- ==== Proof.lean ====
/-
  A four-layer graph convolution, tiled on the TensorCore, against its plain host form.

  Every layer is  H' = act (edges (H · W) + b):  a dense product of the node features with a weight matrix, the
  edge step (each node's product row gathered along the edges, scaled by the edge weight and summed into the
  receiving node's row), a bias added to every row, and a clamp at zero on the three hidden layers. The kernel
  program computes the dense product and the bias/clamp in pipelined regions over blocks of 1000 node rows and
  leaves the edge step to the host; the reference computes everything on the host.

  At the extended reals the two are the same function of the twelve arguments, by three observations:
  * a product of a block of rows with the whole weight matrix, accumulated into a zero block, is that block
    of rows of the dense product `∑ₖ H (r, k) · W (k, e)`, and the host's product is the same sum — so the
    100 row blocks of a region assemble to the whole dense product (`DenseRegion*`, `GraphLayer`);
  * the bias row added inside a block and the bias broadcast over the whole array add the same `b e` to entry
    `(r, e)`, and the maximum with zero is taken entry by entry (`BiasRegion*`, `ReferenceValue`, `Agreement`);
  * the edge step is the same host computation in both programs, applied to equal arrays, and is never opened
    (`EdgeStep`, `HostStretches`).
  No law used needs finiteness: only the definition of the product as a sum and equality of entries.

  The kernel program's execution is read through its segments (`WholeRun`): every buffer ends at the last
  valuation of the fold of its eight regions and four host stretches, and `LayerValues` computes that fold at
  the result buffer. The reference's execution is its generated run, whose result term `ReferenceValue` reads.
  The idealization ledger is empty, so the preservation claim has nothing to state.
-/
import proofs.«106282_j44418551775395_1_alg».proof.Defs
import proofs.«106282_j44418551775395_1_alg».proof.Proof.Gen.Kernel
import proofs.«106282_j44418551775395_1_alg».proof.Proof.Gen.Kernel.Skeleton
import proofs.«106282_j44418551775395_1_alg».proof.Proof.Gen.Kernel.Launch
import proofs.«106282_j44418551775395_1_alg».proof.Proof.Gen.Kernel.Points
import proofs.«106282_j44418551775395_1_alg».proof.Proof.Gen.Kernel.Frame
import proofs.«106282_j44418551775395_1_alg».proof.Proof.Gen.KernelIdeal
import proofs.«106282_j44418551775395_1_alg».proof.Proof.Gen.KernelIdeal.Skeleton
import proofs.«106282_j44418551775395_1_alg».proof.Proof.Gen.KernelIdeal.Launch
import proofs.«106282_j44418551775395_1_alg».proof.Proof.Gen.KernelIdeal.Points
import proofs.«106282_j44418551775395_1_alg».proof.Proof.Gen.KernelIdeal.Frame
import proofs.«106282_j44418551775395_1_alg».proof.Proof.Gen.ReferenceIdeal
import proofs.«106282_j44418551775395_1_alg».proof.Proof.Gen.Pre_finite_inputs
import proofs.«106282_j44418551775395_1_alg».proof.Proof.Gen.ReferenceIdeal.Run
import proofs.«106282_j44418551775395_1_alg».proof.Proof.Gen.ReferenceIdeal.Read
import proofs.«106282_j44418551775395_1_alg».proof.Proof.WholeRun
import proofs.«106282_j44418551775395_1_alg».proof.Proof.LayerValues
import proofs.«106282_j44418551775395_1_alg».proof.Proof.ReferenceValue
import proofs.«106282_j44418551775395_1_alg».proof.Proof.Agreement
import Idealize.ShloMosaic.Adequacy
import Idealize.ShloMosaic.Init

set_option maxRecDepth 16384

noncomputable section

namespace Cert.Proof

open Idealize.ShloMosaic Idealize.SL.Sem

/-- The word-level kernel program runs, faults nowhere, and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the arguments, both programs end with the four-layer formula of those arguments
    in their result buffers, and with their arguments unchanged. -/
theorem algebraic : Cert.algebraic_KernelIdeal_ReferenceIdeal := by
  intro m ρ m' ρ' _ hagree
  refine ⟨fun c => Cert.KernelIdeal.LayerValues.output m c, ?_, ?_⟩
  · refine (θ_run Cert.KernelIdeal.defs _ _).mono (fun r h c => ?_) (Cert.KernelIdeal.WholeRun.run_all (F := Ideal) m ρ)
    exact ⟨(Cert.KernelIdeal.WholeRun.read_at m ρ r h c Cert.KernelIdeal.main_v63 (by decide)).trans
        (Cert.KernelIdeal.LayerValues.layer4 m ρ c),
      (Cert.KernelIdeal.WholeRun.read_at m ρ r h c Cert.KernelIdeal.main_arg0 (by decide)).trans (Cert.KernelIdeal.Gen.W12_main_arg0 m ρ c),
      (Cert.KernelIdeal.WholeRun.read_at m ρ r h c Cert.KernelIdeal.main_arg1 (by decide)).trans (Cert.KernelIdeal.Gen.W12_main_arg1 m ρ c),
      (Cert.KernelIdeal.WholeRun.read_at m ρ r h c Cert.KernelIdeal.main_arg2 (by decide)).trans (Cert.KernelIdeal.Gen.W12_main_arg2 m ρ c),
      (Cert.KernelIdeal.WholeRun.read_at m ρ r h c Cert.KernelIdeal.main_arg3 (by decide)).trans (Cert.KernelIdeal.Gen.W12_main_arg3 m ρ c),
      (Cert.KernelIdeal.WholeRun.read_at m ρ r h c Cert.KernelIdeal.main_arg4 (by decide)).trans (Cert.KernelIdeal.Gen.W12_main_arg4 m ρ c),
      (Cert.KernelIdeal.WholeRun.read_at m ρ r h c Cert.KernelIdeal.main_arg5 (by decide)).trans (Cert.KernelIdeal.Gen.W12_main_arg5 m ρ c),
      (Cert.KernelIdeal.WholeRun.read_at m ρ r h c Cert.KernelIdeal.main_arg6 (by decide)).trans (Cert.KernelIdeal.Gen.W12_main_arg6 m ρ c),
      (Cert.KernelIdeal.WholeRun.read_at m ρ r h c Cert.KernelIdeal.main_arg7 (by decide)).trans (Cert.KernelIdeal.Gen.W12_main_arg7 m ρ c),
      (Cert.KernelIdeal.WholeRun.read_at m ρ r h c Cert.KernelIdeal.main_arg8 (by decide)).trans (Cert.KernelIdeal.Gen.W12_main_arg8 m ρ c),
      (Cert.KernelIdeal.WholeRun.read_at m ρ r h c Cert.KernelIdeal.main_arg9 (by decide)).trans (Cert.KernelIdeal.Gen.W12_main_arg9 m ρ c),
      (Cert.KernelIdeal.WholeRun.read_at m ρ r h c Cert.KernelIdeal.main_arg10 (by decide)).trans (Cert.KernelIdeal.Gen.W12_main_arg10 m ρ c),
      (Cert.KernelIdeal.WholeRun.read_at m ρ r h c Cert.KernelIdeal.main_arg11 (by decide)).trans (Cert.KernelIdeal.Gen.W12_main_arg11 m ρ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    exact (Cert.ReferenceIdeal.LayerValues.result_eq m' c).trans
      (Cert.Agreement.outputs_agree m m' c h0 h1 h2 h3 h4 h5 h6 h7 h8 h9 h10 h11)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
